-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S4000x512 : Shape := ⟨2, ![4000, 512]⟩
abbrev S4000x16 : Shape := ⟨2, ![4000, 16]⟩
abbrev S3300000x16 : Shape := ⟨2, ![3300000, 16]⟩
abbrev S1x16 : Shape := ⟨2, ![1, 16]⟩
abbrev S100000x40 : Shape := ⟨2, ![100000, 40]⟩
abbrev S10000x16 : Shape := ⟨2, ![10000, 16]⟩
abbrev S10000x40 : Shape := ⟨2, ![10000, 40]⟩
abbrev S3300000x40 : Shape := ⟨2, ![3300000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 82
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S3300000x1, .f32⟩
  | .hbm, ⟨47, _⟩ => ⟨S100000x16, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x16, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x40, .f32⟩
  | .hbm, ⟨65, _⟩ => ⟨S_, .i32⟩
  | .hbm, ⟨66, _⟩ => ⟨S3300000, .i32⟩
  | .hbm, ⟨67, _⟩ => ⟨S3300000, .i1⟩
  | .hbm, ⟨68, _⟩ => ⟨S_, .i32⟩
  | .hbm, ⟨69, _⟩ => ⟨S3300000, .i32⟩
  | .hbm, ⟨70, _⟩ => ⟨S3300000, .i32⟩
  | .hbm, ⟨71, _⟩ => ⟨S3300000, .i32⟩
  | .hbm, ⟨72, _⟩ => ⟨S3300000x1, .i32⟩
  | .hbm, ⟨73, _⟩ => ⟨S3300000x40, .f32⟩
  | .hbm, ⟨74, _⟩ => ⟨S3300000x40, .f32⟩
  | .hbm, ⟨75, _⟩ => ⟨S3300000x40, .f32⟩
  | .hbm, ⟨76, _⟩ => ⟨S_, .f32⟩
  | .hbm, ⟨77, _⟩ => ⟨S100000x40, .f32⟩
  | .hbm, ⟨78, _⟩ => ⟨S3300000x1, .i32⟩
  | .hbm, ⟨79, _⟩ => ⟨S100000x40, .f32⟩
  | .hbm, ⟨80, _⟩ => ⟨S1x40, .f32⟩
  | .hbm, ⟨81, _⟩ => ⟨S100000x40, .f32⟩
  | .local _ .vmem, ⟨0, _⟩ => ⟨S4000x512, .f32⟩
  | .local _ .vmem, ⟨1, _⟩ => ⟨S4000x512, .f32⟩
  | .local _ .vmem, ⟨2, _⟩ => ⟨S512x16, .f32⟩
  | .local _ .vmem, ⟨3, _⟩ => ⟨S4000x16, .f32⟩
  | .local _ .vmem, ⟨4, _⟩ => ⟨S4000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S16x40, .f32⟩
  | .local _ .vmem, ⟨9, _⟩ => ⟨S10000x40, .f32⟩
  | .local _ .vmem, ⟨10, _⟩ => ⟨S10000x40, .f32⟩
  | .local _ .vmem, ⟨11, _⟩ => ⟨S10000x40, .f32⟩
  | .local _ .vmem, ⟨12, _⟩ => ⟨S10000x40, .f32⟩
  | .local _ .vmem, ⟨13, _⟩ => ⟨S1x40, .f32⟩
  | .local _ .vmem, ⟨14, _⟩ => ⟨S10000x40, .f32⟩
  | .local _ .vmem, ⟨15, _⟩ => ⟨S10000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S4000x16_S4000x16_0_0 : ∀ a, (![0, 0] : Fin 2 → Nat) a + S4000x16.size a ≤ S4000x16.size a
  h_S4000x16 : 0 < S4000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x40_S16x40_0_0 : ∀ a, (![0, 0] : Fin 2 → Nat) a + S16x40.size a ≤ S16x40.size a
  h_S16x40 : 0 < S16x40.numel
  inb_S10000x40_S10000x40_0_0 : ∀ a, (![0, 0] : Fin 2 → Nat) a + S10000x40.size a ≤ S10000x40.size a
  h_S10000x40 : 0 < S10000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  shapeCasts_S40_S1x40 : S40.ShapeCasts S1x40
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S4000x512_S512x16_S4000x16_1_0_0_1_n_n_wf : DotDims.WF S4000x512 S512x16 S4000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x40_S10000x40_1_0_0_1_n_n_wf : DotDims.WF S10000x16 S16x40 S10000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S100000x16.size a
  hwx0_2 : ∀ i : grid0.Coords, EltTy.bits .f32 = 32 ∨ (Rect.block (s := S100000x16) S4000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x40.size a ≤ S16x40.size a
  hwx1_2 : ∀ i : grid1.Coords, EltTy.bits .f32 = 32 ∨ (Rect.block (s := S16x40) S16x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x40.size a ≤ S100000x40.size a
  hwx1_3 : ∀ i : grid1.Coords, EltTy.bits .f32 = 32 ∨ (Rect.block (s := S100000x40) S10000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x40.size a ≤ S100000x40.size a
  hwx2_0 : ∀ i : grid2.Coords, EltTy.bits .f32 = 32 ∨ (Rect.block (s := S100000x40) S10000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x40.size a ≤ S100000x40.size a
  hwx2_2 : ∀ i : grid2.Coords, EltTy.bits .f32 = 32 ∨ (Rect.block (s := S100000x40) S10000x40.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S4000x512_S512x16_S4000x16_1_0_0_1_n_n : DotDims S4000x512 S512x16 S4000x16 where
  lhsContracting := [1]
  rhsContracting := [0]
  lhsNonContracting := [0]
  rhsNonContracting := [1]
  lhsBatch := []
  rhsBatch := []
  wf := dot_S4000x512_S512x16_S4000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x40_S10000x40_1_0_0_1_n_n : DotDims S10000x16 S16x40 S10000x40 where
  lhsContracting := [1]
  rhsContracting := [0]
  lhsNonContracting := [0]
  rhsNonContracting := [1]
  lhsBatch := []
  rhsBatch := []
  wf := dot_S10000x16_S16x40_S10000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S4000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S10000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S10000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S3300000x1, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x16, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x40, .f32⟩
  | .hbm, ⟨70, _⟩ => ⟨S3300000x1, .f32⟩
  | .hbm, ⟨71, _⟩ => ⟨S_, .i32⟩
  | .hbm, ⟨72, _⟩ => ⟨S3300000, .i32⟩
  | .hbm, ⟨73, _⟩ => ⟨S3300000, .i1⟩
  | .hbm, ⟨74, _⟩ => ⟨S_, .i32⟩
  | .hbm, ⟨75, _⟩ => ⟨S3300000, .i32⟩
  | .hbm, ⟨76, _⟩ => ⟨S3300000, .i32⟩
  | .hbm, ⟨77, _⟩ => ⟨S3300000, .i32⟩
  | .hbm, ⟨78, _⟩ => ⟨S3300000x1, .i32⟩
  | .hbm, ⟨79, _⟩ => ⟨S3300000x40, .f32⟩
  | .hbm, ⟨80, _⟩ => ⟨S3300000x40, .f32⟩
  | .hbm, ⟨81, _⟩ => ⟨S3300000x40, .f32⟩
  | .hbm, ⟨82, _⟩ => ⟨S_, .f32⟩
  | .hbm, ⟨83, _⟩ => ⟨S100000x40, .f32⟩
  | .hbm, ⟨84, _⟩ => ⟨S3300000x1, .i32⟩
  | .hbm, ⟨85, _⟩ => ⟨S100000x40, .f32⟩
  | .hbm, ⟨86, _⟩ => ⟨S1x40, .f32⟩
  | .hbm, ⟨87, _⟩ => ⟨S100000x40, .f32⟩
  | .hbm, ⟨88, _⟩ => ⟨S100000x40, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x40, .f32⟩
  | .hbm, ⟨96, _⟩ => ⟨S100000x40, .f32⟩
  | .hbm, ⟨97, _⟩ => ⟨S100000x40, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x40, .f32⟩
  | .hbm, ⟨103, _⟩ => ⟨S100000x40, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.KernelRun.lean ====
/-
  The idealized kernel's run with its result NAMED: every weakly fair execution of @main terminates, nothing
  faulting, with the result array at what the last region's write-backs leave of it and the six arguments as launched.
  The program is a chain of eight segments — three stretches of host operations, the first pallas_call, a host stretch,
  the second pallas_call, a host stretch, the third pallas_call — and the buffers' contents at each boundary are the
  fold W0 … W8 through them; the result array is read off the last boundary, W8.
-/
import proofs.«141634_j22668837388509_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the segments launched from any memory with zero counters; the last thread state — every unscoped buffer at
    the last boundary's contents — read against the final state gives the result array at `W8` and each argument, through
    the fold, at its launch contents. -/
theorem run_named : θ_run defs (onTc (τ := τ) (main (F := F))) ⟨m, fun _ => 0, ρ⟩ (fun r => ∀ c : Dev nD,
      r.2.mem ((c.tc : Thread nD τ).loc main_v59) = W8 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v59 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Hand

end
-- ==== Proof.HostPart.lean ====
/-
  The sparse half of the graph convolution, which both programs run on the host with the same operations: the edge
  list with a self-loop per node appended, the symmetric degree normalization, and the gather–scale–scatter-add
  aggregation over the edges.

  * `rowOf e`, `colOf e`: the source and target node of each of the 3200000 edges (rows 0 and 1 of the edge array),
    followed by the nodes 0 … 99999 themselves (the self-loops): 3300000 entries each.
  * `wrapIdx`: an index below zero counted from the end (+100000), as an index column.
  * `degInv col`: deg(n)^(-1/2) where the in-degree deg(n) — the number of entries of `col` equal to n — is positive,
    0 elsewhere.
  * `normOf row col`: per edge, degInv(source) · degInv(target), as a column.
  * `agg16`, `agg40`: per target node, the sum over its incoming edges of the edge's normalization times the source
    node's feature row (16 or 40 features).
-/
import proofs.«141634_j22668837388509_1_alg».proof.Proof.Gen.KernelIdeal

noncomputable section

namespace Cert.KernelIdeal.Hand

open Cert.KernelIdeal Cert.KernelIdeal.Gen
open Idealize.ShloMosaic

variable {F : FTy → Type} [FloatOps F]

/-- Edge sources, then the self-loops. -/
def rowOf (e : (⟨S2x3200000, .i32⟩ : BufTy).Contents (Elt F)) : (⟨S3300000, .i32⟩ : BufTy).Contents (Elt F) :=
  concatenate S3300000 0 [⟨S3200000, shapeCast S3200000 (extractStridedSlice S1x3200000 ![0, 0] e slices_S2x3200000_S1x3200000_0_0) shapeCasts_S1x3200000_S3200000⟩, ⟨S100000, iotaInDim S100000 32 0⟩] concatenates_S3200000_S100000_S3300000_d0

/-- Edge targets, then the self-loops. -/
def colOf (e : (⟨S2x3200000, .i32⟩ : BufTy).Contents (Elt F)) : (⟨S3300000, .i32⟩ : BufTy).Contents (Elt F) :=
  concatenate S3300000 0 [⟨S3200000, shapeCast S3200000 (extractStridedSlice S1x3200000 ![1, 0] e slices_S2x3200000_S1x3200000_1_0) shapeCasts_S1x3200000_S3200000⟩, ⟨S100000, iotaInDim S100000 32 0⟩] concatenates_S3200000_S100000_S3300000_d0

/-- A node index, negative ones counted from the end, as a column of gather indices. -/
def wrapIdx (r : (⟨S3300000, .i32⟩ : BufTy).Contents (Elt F)) : (⟨S3300000x1, .i32⟩ : BufTy).Contents (Elt F) :=
  broadcastInDim S3300000x1 ![0] bcast_S3300000_S3300000x1_0
    (select (cmpi .slt r (broadcastInDim S3300000 ![] bcast_S_S3300000 (constantI S_ 32 0#32)))
      (addi r (broadcastInDim S3300000 ![] bcast_S_S3300000 (constantI S_ 32 100000#32))) r)

/-- The in-degree of every node: one added at each entry of `col`. -/
def degOf (col : (⟨S3300000, .i32⟩ : BufTy).Contents (Elt F)) : (⟨S100000, .f32⟩ : BufTy).Contents (Elt F) :=
  Host.scatterAdd scatter_S100000_S3300000x1_S3300000_n_0_0_1
    (broadcastInDim S100000 ![] bcast_S_S100000 (constant S_ .f32 0x00000000#32))
    (broadcastInDim S3300000x1 ![0] bcast_S3300000_S3300000x1_0 col)
    (broadcastInDim S3300000 ![] bcast_S_S3300000 (constant S_ .f32 0x3F800000#32))

/-- deg^(-1/2) where the degree is positive, 0 elsewhere. -/
def degInv (col : (⟨S3300000, .i32⟩ : BufTy).Contents (Elt F)) : (⟨S100000, .f32⟩ : BufTy).Contents (Elt F) :=
  select (cmpf .ogt (degOf col) (broadcastInDim S100000 ![] bcast_S_S100000 (constant S_ .f32 0x00000000#32)))
    (Host.rsqrt (degOf col))
    (broadcastInDim S100000 ![] bcast_S_S100000 (id (constant S_ .f32 0x00000000#32)))

/-- The normalization of every edge, as a column. -/
def normOf (row col : (⟨S3300000, .i32⟩ : BufTy).Contents (Elt F)) : (⟨S3300000x1, .f32⟩ : BufTy).Contents (Elt F) :=
  broadcastInDim S3300000x1 ![0] bcast_S3300000_S3300000x1_0
    (mulf (Host.gather gather_S100000_S3300000x1_S3300000_n_0_n_n_0_1_1 (degInv col) (wrapIdx row))
      (Host.gather gather_S100000_S3300000x1_S3300000_n_0_n_n_0_1_1 (degInv col) (wrapIdx col)))

/-- Aggregation of 16-feature rows over the edges. -/
def agg16 (row col : (⟨S3300000, .i32⟩ : BufTy).Contents (Elt F)) (nrm : (⟨S3300000x1, .f32⟩ : BufTy).Contents (Elt F))
    (y : (⟨S100000x16, .f32⟩ : BufTy).Contents (Elt F)) : (⟨S100000x16, .f32⟩ : BufTy).Contents (Elt F) :=
  Host.scatterAdd scatter_S100000x16_S3300000x1_S3300000x16_1_0_0_1
    (broadcastInDim S100000x16 ![] bcast_S_S100000x16 (constant S_ .f32 0x00000000#32))
    (broadcastInDim S3300000x1 ![0] bcast_S3300000_S3300000x1_0 col)
    (mulf (broadcastInDim S3300000x16 ![0, 1] bcast_S3300000x1_S3300000x16_0_1 nrm)
      (Host.gather gather_S100000x16_S3300000x1_S3300000x16_1_0_n_n_0_1_116 y (wrapIdx row)))

/-- Aggregation of 40-feature rows over the edges. -/
def agg40 (row col : (⟨S3300000, .i32⟩ : BufTy).Contents (Elt F)) (nrm : (⟨S3300000x1, .f32⟩ : BufTy).Contents (Elt F))
    (y : (⟨S100000x40, .f32⟩ : BufTy).Contents (Elt F)) : (⟨S100000x40, .f32⟩ : BufTy).Contents (Elt F) :=
  Host.scatterAdd scatter_S100000x40_S3300000x1_S3300000x40_1_0_0_1
    (broadcastInDim S100000x40 ![] bcast_S_S100000x40 (constant S_ .f32 0x00000000#32))
    (broadcastInDim S3300000x1 ![0] bcast_S3300000_S3300000x1_0 col)
    (mulf (broadcastInDim S3300000x40 ![0, 1] bcast_S3300000x1_S3300000x40_0_1 nrm)
      (Host.gather gather_S100000x40_S3300000x1_S3300000x40_1_0_n_n_0_1_140 y (wrapIdx row)))

end Cert.KernelIdeal.Hand

end
-- ==== Proof.KernelStretch.lean ====
/-
  The host stretches of the kernel's program, read as values: what each stretch of host operations writes, as a function
  of the buffers it finds. Before the first pallas_call the host builds the edge endpoints with the self-loops appended
  (rowOf, colOf), the in-degrees and their inverse square roots (degOf, degInv) and the per-edge normalization
  (normOf); between the pallas_calls it gathers the source rows of the last dense result, scales them by the
  normalization and adds them up per target node (agg16, agg40), and re-lays the bias vector as a one-row matrix.
-/
import proofs.«141634_j22668837388509_1_alg».proof.Proof.Gen.KernelIdeal.Frame
import proofs.«141634_j22668837388509_1_alg».proof.Proof.HostPart
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

variable (X : Valuation τ sig (Elt F))

/-! ## The first stretch: the edge endpoints, the degree test and the inverse square roots -/

theorem s0_v3 : after hostOps0 X (Proc.devRef .tc main_v3) = rowOf (X (Proc.devRef .tc main_arg1)) := by
  after_results; rfl

theorem s0_v6 : after hostOps0 X (Proc.devRef .tc main_v6) = colOf (X (Proc.devRef .tc main_arg1)) := by
  after_results; rfl

theorem s0_v12 : after hostOps0 X (Proc.devRef .tc main_v12)
    = cmpf .ogt (degOf (colOf (X (Proc.devRef .tc main_arg1)))) (broadcastInDim S100000 ![] bcast_S_S100000 (constant S_ .f32 0x00000000#32)) := by
  after_results; rfl

theorem s0_v13 : after hostOps0 X (Proc.devRef .tc main_v13) = Host.rsqrt (degOf (colOf (X (Proc.devRef .tc main_arg1)))) := by
  after_results; rfl

theorem s0_cst2 : after hostOps0 X (Proc.devRef .tc main_cst_2) = constant S_ .f32 0x00000000#32 := by
  after_results

/-! ## The outlined select: the inverse square root where the degree is positive, zero elsewhere -/

theorem s01_v14 : after hostOps0_1 X (Proc.devRef .tc main_v14)
    = select (X (Proc.devRef .tc main_v12)) (X (Proc.devRef .tc main_v13))
        (broadcastInDim S100000 ![] bcast_S_S100000 (id (X (Proc.devRef .tc main_cst_2)))) := by
  after_results; rfl

theorem s01_v3 : after hostOps0_1 X (Proc.devRef .tc main_v3) = X (Proc.devRef .tc main_v3) := by after_results
theorem s01_v6 : after hostOps0_1 X (Proc.devRef .tc main_v6) = X (Proc.devRef .tc main_v6) := by after_results

/-! ## The third stretch: the per-edge normalization -/

theorem s02_v30 : after hostOps0_2 X (Proc.devRef .tc main_v30)
    = broadcastInDim S3300000x1 ![0] bcast_S3300000_S3300000x1_0
        (mulf (Host.gather gather_S100000_S3300000x1_S3300000_n_0_n_n_0_1_1 (X (Proc.devRef .tc main_v14)) (wrapIdx (X (Proc.devRef .tc main_v3))))
          (Host.gather gather_S100000_S3300000x1_S3300000_n_0_n_n_0_1_1 (X (Proc.devRef .tc main_v14)) (wrapIdx (X (Proc.devRef .tc main_v6))))) := by
  after_results_simp; rfl

/-! ## Between the first two pallas_calls: the first aggregation, and the first bias as a row -/

theorem s1_v43 : after hostOps1 X (Proc.devRef .tc main_v43)
    = agg16 (X (Proc.devRef .tc main_v3)) (X (Proc.devRef .tc main_v6)) (X (Proc.devRef .tc main_v30)) (X (Proc.devRef .tc main_v31)) := by
  after_results_simp; rfl

theorem s1_v44 : after hostOps1 X (Proc.devRef .tc main_v44) = shapeCast S1x16 (X (Proc.devRef .tc main_arg3)) shapeCasts_S16_S1x16 := by
  after_results; rfl

/-! ## Between the last two pallas_calls: the second aggregation, and the second bias as a row -/

theorem s2_v57 : after hostOps2 X (Proc.devRef .tc main_v57)
    = agg40 (X (Proc.devRef .tc main_v3)) (X (Proc.devRef .tc main_v6)) (X (Proc.devRef .tc main_v30)) (X (Proc.devRef .tc main_v45)) := by
  after_results_simp; rfl

theorem s2_v58 : after hostOps2 X (Proc.devRef .tc main_v58) = shapeCast S1x40 (X (Proc.devRef .tc main_arg5)) shapeCasts_S40_S1x40 := by
  after_results; rfl

end Cert.KernelIdeal.Hand

end
-- ==== Proof.Spec.lean ====
/-
  The three dense stages of the two-layer graph convolution, as functions of whole arrays at the extended reals.

  * `proj`: the feature transform of layer one, x · W₁: entry (n, j) is the sum over the 512 input features f of
    x(n, f) · W₁(f, j).
  * `hidden`: the second transform applied to the rectified first layer: entry (n, j) is the sum over the 16 hidden
    features h of max(a(n, h) + b(0, h), 0) · W₂(h, j), where a is the aggregated first layer and b its bias row.
  * `logSoftmaxBias`: the biased logits z(n, ·) + b(0, ·) of a node, shifted by their maximum M over the 40 classes,
    minus the logarithm of the sum over the classes of exp(logit − M).

  A sum over a finite index set has no order at the extended reals, so a product computed block of rows by block of
  rows and a product computed at once are both these sums.
-/
import Idealize.ShloMosaic.PureOps.Ideal.Laws
import Idealize.ShloMosaic.Lib.ValueIdx

noncomputable section

open scoped BigOperators

namespace Cert.Spec

open Idealize.ShloMosaic Idealize.ShloMosaic.ValueIdx

/-- x · W₁ over [100000, 512] × [512, 16]. -/
def proj (x : FVec Ideal ⟨2, ![100000, 512]⟩ .f32) (w : FVec Ideal ⟨2, ![512, 16]⟩ .f32) :
    FVec Ideal ⟨2, ![100000, 16]⟩ .f32 :=
  fun i => ∑ k : Fin 512, x (ix2 (i 0) k) * w (ix2 k (i 1))

/-- The rectified, biased first layer at (n, h). -/
def relu1 (a : FVec Ideal ⟨2, ![100000, 16]⟩ .f32) (b : FVec Ideal ⟨2, ![1, 16]⟩ .f32) (n : Fin 100000) (h : Fin 16) : EReal :=
  max (a (ix2 n h) + b (ix2 (0 : Fin 1) h)) (Ideal.ofBits .f32 0x00000000#32)

/-- max(a + b, 0) · W₂ over [100000, 16] × [16, 40]. -/
def hidden (a : FVec Ideal ⟨2, ![100000, 16]⟩ .f32) (b : FVec Ideal ⟨2, ![1, 16]⟩ .f32) (w : FVec Ideal ⟨2, ![16, 40]⟩ .f32) :
    FVec Ideal ⟨2, ![100000, 40]⟩ .f32 :=
  fun i => ∑ k : Fin 16, relu1 a b (i 0) k * w (ix2 k (i 1))

/-- The biased logits of node n. -/
def logits (z : FVec Ideal ⟨2, ![100000, 40]⟩ .f32) (b : FVec Ideal ⟨2, ![1, 40]⟩ .f32) (n : Fin 100000) (k : Fin 40) : EReal :=
  z (ix2 n k) + b (ix2 (0 : Fin 1) k)

/-- Their maximum over the 40 classes (the fold of max from −∞). -/
def rowMax (z : FVec Ideal ⟨2, ![100000, 40]⟩ .f32) (b : FVec Ideal ⟨2, ![1, 40]⟩ .f32) (n : Fin 100000) : EReal :=
  (Finset.univ : Finset (Fin 40)).fold max (Ideal.ofBits .f32 0xFF800000#32) (logits z b n)

/-- log-softmax of the biased logits over the class axis. -/
def logSoftmaxBias (z : FVec Ideal ⟨2, ![100000, 40]⟩ .f32) (b : FVec Ideal ⟨2, ![1, 40]⟩ .f32) :
    FVec Ideal ⟨2, ![100000, 40]⟩ .f32 :=
  fun i => (logits z b (i 0) (i 1) - rowMax z b (i 0))
    - Ideal.log (∑ k : Fin 40, Ideal.exp (logits z b (i 0) k - rowMax z b (i 0)))

end Cert.Spec

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.Region0.lean ====
/-
  The first pallas_call, read as a value: the [100000, 16] array it leaves is the product x · W₁.

  The grid has 25 points; point t multiplies rows 4000·t … 4000·t + 3999 of x (all 512 columns) by the whole of W₁
  and writes the [4000, 16] result back to the same rows of the output. Entry (p, q) of a block's product is the sum
  over the 512 features of x(4000·t + p, ·) · W₁(·, q), which is entry (4000·t + p, q) of x · W₁; the 25 row blocks
  tile the 100000 rows, so the array ends holding the whole product.
-/
import proofs.«141634_j22668837388509_1_alg».proof.Proof.Gen.KernelIdeal.Frame
import proofs.«141634_j22668837388509_1_alg».proof.Proof.Spec
import proofs.«141634_j22668837388509_1_alg».proof.Proof.LibMatmul2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl

/-- Entry (p, q) of the body's product of a [4000, 512] block by [512, 16]: the sum over the contraction. -/
theorem pay0_apply (x0 : Vec Ideal S4000x512 .f32) (x1 : Vec Ideal S512x16 .f32) (p : Fin 4000) (q : Fin 16) :
    k0_pay1 (F := Ideal) x0 x1 (ix2 p q) = ∑ k : Fin 512, x0 (ix2 p k) * x1 (ix2 k q) := by
  unfold k0_pay1
  exact Cert.Lib.matmul2_zero_apply (A := 4000) (K := 512) (B := 16) _ _ _ p q

/-- The printed index maps over the grid: the x block and the output block of point t sit at block row t, block
    column 0; the W₁ block is always block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of x · W₁. -/
theorem flushed0_eq (c : Dev nD) (t : Fin cfg0.N) :
    (dat0 V c).flushed 2 t = ((cfg0.win 2).blk t).view.read (Elt Ideal)
      (Cert.Spec.proj (V c main_arg0) (V c main_arg2)) := by
  show (cfg0.win 2).cut (grid0.coords t) ((dat0 V c).after 2 t) = _
  rw [after0_2]
  unfold out0_2
  rw [View.canon_unit_zero zero2]
  simp only [View.ld_unit_zero (S := S4000x512) zero2, View.ld_unit_zero (S := S512x16) zero2]
  obtain ⟨e0, e1, e2, e3, e4, e5⟩ := idx0 t
  funext j
  obtain ⟨p, q, rfl⟩ : ∃ (p : Fin 4000) (q : Fin 16), j = ix2 p q := ⟨j 0, j 1, eq_ix2 j⟩
  show k0_pay1 (F := Ideal) (iblk0 V c 0 t) (iblk0 V c 1 t) (ix2 p q)
    = Cert.Spec.proj (V c main_arg0) (V c main_arg2) (((cfg0.win 2).blk t).view.emb (ix2 p q))
  refine (pay0_apply (iblk0 V c 0 t) (iblk0 V c 1 t) p q).trans ?_
  unfold Cert.Spec.proj
  refine Finset.sum_congr rfl fun k _ => ?_
  have hx : iblk0 V c 0 t (ix2 p k) = V c main_arg0 (ix2 ((((cfg0.win 2).blk t).view.emb (ix2 p q)) 0) k) := by
    show V c main_arg0 (((cfg0.win 0).blk t).view.emb (ix2 p k)) = _
    congr 1; funext a; apply Fin.ext
    match a with
    | ⟨0, _⟩ => show win0_0.index t (0 : Fin 2) * 4000 + 1 * p.val = win0_2.index t (0 : Fin 2) * 4000 + 1 * p.val; omega
    | ⟨1, _⟩ => show win0_0.index t (1 : Fin 2) * 512 + 1 * k.val = k.val; omega
  have hw : iblk0 V c 1 t (ix2 k q) = V c main_arg2 (ix2 k ((((cfg0.win 2).blk t).view.emb (ix2 p q)) 1)) := by
    show V c main_arg2 (((cfg0.win 1).blk t).view.emb (ix2 k q)) = _
    congr 1; funext a; apply Fin.ext
    match a with
    | ⟨0, _⟩ => show win0_1.index t (0 : Fin 2) * 512 + 1 * k.val = k.val; omega
    | ⟨1, _⟩ => show win0_1.index t (1 : Fin 2) * 16 + 1 * q.val = win0_2.index t (1 : Fin 2) * 16 + 1 * q.val; omega
  rw [hx, hw]

/-- An index of the output array is in point t's block iff each coordinate is in the block's range. -/
theorem mem_blk0 (t : Fin cfg0.N) (i : S100000x16.Idx) :
    i ∈ ((cfg0.win 2).blk t).view.set ↔ ∀ a : Fin 2, win0_2.index t a * S4000x16.size a ≤ (i a).val ∧ (i a).val < win0_2.index t a * S4000x16.size a + S4000x16.size a := by
  show i ∈ ((View.whole main_v31).slice (win0_2.rect t)).set ↔ _
  rw [View.set_slice_whole, Rect.mem_set_unit]
  exact Iff.rfl

/-- The array after the region: x · W₁ of the arrays the region finds. -/
theorem region0_value (c : Dev nD) :
    (dat0 V c).arrAt 2 cfg0.N = Cert.Spec.proj (V c main_arg0) (V c main_arg2) :=
  (dat0 V c).arrAt_eq_of_cover 2 _ (fun t _ => flushed0_eq V c t) fun i => by
    have hN : cfg0.N = 25 := N_0
    have hi0 : (i 0).val < 100000 := (i 0).isLt
    have hi1 : (i 1).val < 16 := (i 1).isLt
    refine ⟨⟨(i 0).val / 4000, by omega⟩, flush0_2 _, ?_⟩
    rw [mem_blk0]
    obtain ⟨e0, e1, e2, e3, e4, e5⟩ := idx0 ⟨(i 0).val / 4000, by omega⟩
    intro a
    match a with
    | ⟨0, _⟩ => show win0_2.index _ (0 : Fin 2) * 4000 ≤ (i 0).val ∧ (i 0).val < win0_2.index _ (0 : Fin 2) * 4000 + 4000; rw [e4]; simp only []; omega
    | ⟨1, _⟩ => show win0_2.index _ (1 : Fin 2) * 16 ≤ (i 1).val ∧ (i 1).val < win0_2.index _ (1 : Fin 2) * 16 + 16; rw [e5]; omega

end Cert.KernelIdeal.Hand

end
-- ==== Proof.Region1.lean ====
/-
  The second pallas_call, read as a value: the [100000, 40] array it leaves is max(a + b, 0) · W₂, where a is the
  aggregated first layer and b the bias row.

  The grid has 10 points; point t takes rows 10000·t … 10000·t + 9999 of a, adds the one bias row to each, clamps below
  at 0, multiplies by the whole of W₂ and writes the [10000, 40] result to the same rows of the output. Entry (p, q) of a
  block's product is the sum over the 16 hidden features h of max(a(10000·t + p, h) + b(0, h), 0) · W₂(h, q); the 10 row
  blocks tile the 100000 rows.
-/
import proofs.«141634_j22668837388509_1_alg».proof.Proof.Gen.KernelIdeal.Frame
import proofs.«141634_j22668837388509_1_alg».proof.Proof.Spec
import proofs.«141634_j22668837388509_1_alg».proof.Proof.LibMatmul2
import proofs.«141634_j22668837388509_1_alg».proof.Proof.Region0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Entry (p, q) of the body's result on a [10000, 16] block, the bias row and W₂. -/
theorem pay1_apply (x0 : Vec Ideal S10000x16 .f32) (x1 : Vec Ideal S1x16 .f32) (x2 : Vec Ideal S16x40 .f32) (p : Fin 10000) (q : Fin 40) :
    k1_pay1 (F := Ideal) x0 x1 x2 (ix2 p q)
      = ∑ k : Fin 16, max (x0 (ix2 p k) + x1 (ix2 (0 : Fin 1) k)) (Ideal.ofBits .f32 0x00000000#32) * x2 (ix2 k q) := by
  unfold k1_pay1
  refine (Cert.Lib.matmul2_zero_apply (A := 10000) (K := 16) (B := 40) _ _ _ p q).trans ?_
  refine Finset.sum_congr rfl fun k _ => ?_
  show max (shapeCast S10000x16 x0 _ (ix2 p k) + broadcastTo S10000x16 (shapeCast S1x16 x1 _) _ (ix2 p k)) _ * x2 (ix2 k q) = _
  rw [shapeCast_self, shapeCast_self, broadcastTo_1b_ab_apply]
  rfl

/-- The printed index maps over the grid: the a block and the output block of point t sit at block row t; the bias row
    and W₂ are always block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of max(a + b, 0) · W₂. -/
theorem flushed1_eq (c : Dev nD) (t : Fin cfg1.N) :
    (dat1 V c).flushed 3 t = ((cfg1.win 3).blk t).view.read (Elt Ideal)
      (Cert.Spec.hidden (V c main_v43) (V c main_v44) (V c main_arg4)) := by
  show (cfg1.win 3).cut (grid1.coords t) ((dat1 V c).after 3 t) = _
  rw [after1_3]
  unfold out1_3
  rw [View.canon_unit_zero zero2]
  simp only [View.ld_unit_zero (S := S10000x16) zero2, View.ld_unit_zero (S := S1x16) zero2, View.ld_unit_zero (S := S16x40) zero2]
  obtain ⟨e0, e1, e2, e3, e4, e5, e6, e7⟩ := idx1 t
  funext j
  obtain ⟨p, q, rfl⟩ : ∃ (p : Fin 10000) (q : Fin 40), j = ix2 p q := ⟨j 0, j 1, eq_ix2 j⟩
  show k1_pay1 (F := Ideal) (iblk1 V c 0 t) (iblk1 V c 1 t) (iblk1 V c 2 t) (ix2 p q)
    = Cert.Spec.hidden (V c main_v43) (V c main_v44) (V c main_arg4) (((cfg1.win 3).blk t).view.emb (ix2 p q))
  refine (pay1_apply (iblk1 V c 0 t) (iblk1 V c 1 t) (iblk1 V c 2 t) p q).trans ?_
  unfold Cert.Spec.hidden Cert.Spec.relu1
  refine Finset.sum_congr rfl fun k _ => ?_
  have ha : iblk1 V c 0 t (ix2 p k) = V c main_v43 (ix2 ((((cfg1.win 3).blk t).view.emb (ix2 p q)) 0) k) := by
    show V c main_v43 (((cfg1.win 0).blk t).view.emb (ix2 p k)) = _
    congr 1; funext a; apply Fin.ext
    match a with
    | ⟨0, _⟩ => show win1_0.index t (0 : Fin 2) * 10000 + 1 * p.val = win1_3.index t (0 : Fin 2) * 10000 + 1 * p.val; omega
    | ⟨1, _⟩ => show win1_0.index t (1 : Fin 2) * 16 + 1 * k.val = k.val; omega
  have hb : iblk1 V c 1 t (ix2 (0 : Fin 1) k) = V c main_v44 (ix2 (0 : Fin 1) k) := by
    show V c main_v44 (((cfg1.win 1).blk t).view.emb (ix2 (0 : Fin 1) k)) = _
    congr 1; funext a; apply Fin.ext
    match a with
    | ⟨0, _⟩ => show win1_1.index t (0 : Fin 2) * 1 + 1 * 0 = 0; omega
    | ⟨1, _⟩ => show win1_1.index t (1 : Fin 2) * 16 + 1 * k.val = k.val; omega
  have hw : iblk1 V c 2 t (ix2 k q) = V c main_arg4 (ix2 k ((((cfg1.win 3).blk t).view.emb (ix2 p q)) 1)) := by
    show V c main_arg4 (((cfg1.win 2).blk t).view.emb (ix2 k q)) = _
    congr 1; funext a; apply Fin.ext
    match a with
    | ⟨0, _⟩ => show win1_2.index t (0 : Fin 2) * 16 + 1 * k.val = k.val; omega
    | ⟨1, _⟩ => show win1_2.index t (1 : Fin 2) * 40 + 1 * q.val = win1_3.index t (1 : Fin 2) * 40 + 1 * q.val; omega
  rw [ha, hb, hw]

/-- An index of the output array is in point t's block iff each coordinate is in the block's range. -/
theorem mem_blk1 (t : Fin cfg1.N) (i : S100000x40.Idx) :
    i ∈ ((cfg1.win 3).blk t).view.set ↔ ∀ a : Fin 2, win1_3.index t a * S10000x40.size a ≤ (i a).val ∧ (i a).val < win1_3.index t a * S10000x40.size a + S10000x40.size a := by
  show i ∈ ((View.whole main_v45).slice (win1_3.rect t)).set ↔ _
  rw [View.set_slice_whole, Rect.mem_set_unit]
  exact Iff.rfl

/-- The array after the region: max(a + b, 0) · W₂ of the arrays the region finds. -/
theorem region1_value (c : Dev nD) :
    (dat1 V c).arrAt 3 cfg1.N = Cert.Spec.hidden (V c main_v43) (V c main_v44) (V c main_arg4) :=
  (dat1 V c).arrAt_eq_of_cover 3 _ (fun t _ => flushed1_eq V c t) fun i => by
    have hN : cfg1.N = 10 := N_1
    have hi0 : (i 0).val < 100000 := (i 0).isLt
    have hi1 : (i 1).val < 40 := (i 1).isLt
    refine ⟨⟨(i 0).val / 10000, by omega⟩, flush1_3 _, ?_⟩
    rw [mem_blk1]
    obtain ⟨e0, e1, e2, e3, e4, e5, e6, e7⟩ := idx1 ⟨(i 0).val / 10000, by omega⟩
    intro a
    match a with
    | ⟨0, _⟩ => show win1_3.index _ (0 : Fin 2) * 10000 ≤ (i 0).val ∧ (i 0).val < win1_3.index _ (0 : Fin 2) * 10000 + 10000; rw [e6]; simp only []; omega
    | ⟨1, _⟩ => show win1_3.index _ (1 : Fin 2) * 40 ≤ (i 1).val ∧ (i 1).val < win1_3.index _ (1 : Fin 2) * 40 + 40; rw [e7]; omega

end Cert.KernelIdeal.Hand

end
-- ==== Proof.LibKeepdims.lean ====
/-
  A reduction over the last axis of a matrix, kept as a column and broadcast back along the rows — the form a sum or a
  maximum with `keepdims` takes inside a kernel body: the reduction of an [a, n] matrix to a vector [a], a shape cast of the
  vector to the column [a, 1], a broadcast of the column to [a, b]. Read at (p, c), the result is the reduction of row p:
  a sum over the row's n entries, or the fold of `max` over them from the accumulator's value. The two layout steps are
  stated for any element type; the two reductions are read at the extended reals, where a sum has no order.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Lib

open Idealize.ShloMosaic Idealize.ShloMosaic.ValueIdx

section Layout
variable {α : Type}

/-- A vector [a] cast to the column [a, 1] reads, at (i, 0), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- So a vector [a] kept as a column and broadcast to [a, b] reads, at (p, c), the vector at p. -/
theorem keepdims_apply {a b : ℕ} (x : (⟨1, ![a]⟩ : Shape).Idx → α) (h2 : (⟨1, ![a]⟩ : Shape).ShapeCasts ⟨2, ![a, 1]⟩)
    (h3 : (⟨2, ![a, 1]⟩ : Shape).Broadcasts ⟨2, ![a, b]⟩) (p : Fin a) (c : Fin b) :
    broadcastTo ⟨2, ![a, b]⟩ (shapeCast ⟨2, ![a, 1]⟩ x h2) h3 (ix2 p c) = x (ix1 p) :=
  (broadcastTo_a1_ab_apply _ h3 p c).trans (shapeCast_a_a1_apply x h2 p 0)

end Layout

/-- The index of an [a, n] matrix that reduces along axis 1 to row p, at coordinate k, is (p, k). -/
theorem lift_row {a n : ℕ} (h : (⟨2, ![a, n]⟩ : Shape).Reduces [1] ⟨1, ![a]⟩) (p : Fin a) (k : Fin n) :
    h.lift (ix1 p) k = ix2 p k := by
  funext d; apply Fin.ext
  match d with | ⟨0, _⟩ => rfl | ⟨1, _⟩ => rfl

/-- A sum over the last axis of an [a, n] matrix, read at row p: the sum of the row's entries. -/
theorem rowSum_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the last axis of an [a, n] matrix, read at row p: the fold of `max` over the row's entries from the
    accumulator's value. -/
theorem rowMax_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin n)).fold max (Ideal.ofBits φ acc) (fun k => src (ix2 p k)) := by
  refine (Ideal.multiReduction_maximumf_single src acc h hφ hacc (ix1 p)).trans ?_
  have hg : (src ∘ h.lift (ix1 p)) = fun k => src (ix2 p k) := funext fun k => congrArg src (lift_row h p k)
  rw [hg]
  rfl

/-- The row sum kept as a column and broadcast along the row. -/
theorem rowSum_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .add [1] ⟨1, ![a]⟩ src acc h hφ hacc) h2) h3 (ix2 p c)
      = ∑ k : Fin n, src (ix2 p k) :=
  (keepdims_apply _ h2 h3 p c).trans (rowSum_apply src acc h hφ hacc p)

/-- The row maximum kept as a column and broadcast along the row. -/
theorem rowMax_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .maximumf [1] ⟨1, ![a]⟩ src acc h hφ hacc) h2) h3 (ix2 p c)
      = (Finset.univ : Finset (Fin n)).fold max (Ideal.ofBits φ acc) (fun k => src (ix2 p k)) :=
  (keepdims_apply _ h2 h3 p c).trans (rowMax_apply src acc h hφ hacc p)

end Cert.Lib

end
-- ==== Proof.Region2.lean ====
/-
  The third pallas_call, read as a value: the [100000, 40] array it leaves is the log-softmax of the biased logits.

  The grid has 10 points; point t takes rows 10000·t … 10000·t + 9999 of the aggregated logits (all 40 classes) and
  the one bias row, and writes the [10000, 40] result back to the same rows of the output. Entry (p, q) of a block's
  result is z(p, q) − M(p) − log Σ_k exp(z(p, k) − M(p)), where z is the block plus the bias row and M(p) the maximum
  of row p of z over the 40 classes; every quantity in it belongs to row 10000·t + p of the whole array alone, so it
  is entry (10000·t + p, q) of the log-softmax of the whole array. The 10 row blocks tile the 100000 rows, so the
  array ends holding the whole log-softmax.
-/
import proofs.«141634_j22668837388509_1_alg».proof.Proof.Gen.KernelIdeal.Frame
import proofs.«141634_j22668837388509_1_alg».proof.Proof.Spec
import proofs.«141634_j22668837388509_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The biased block: a [10000, 40] block of logits plus the bias row broadcast over its rows. -/
def zblk2 (x0 : Vec Ideal S10000x40 .f32) (x1 : Vec Ideal S1x40 .f32) : FVec Ideal S10000x40 .f32 :=
  addf (shapeCast S10000x40 x0 shapeCasts_S10000x40_S10000x40)
    (broadcastTo S10000x40 (shapeCast S1x40 x1 shapeCasts_S1x40_S1x40) broadcasts_S1x40_S10000x40)

/-- Entry (p, k) of the biased block: the logit plus the bias of class k. -/
theorem zblk2_apply (x0 : Vec Ideal S10000x40 .f32) (x1 : Vec Ideal S1x40 .f32) (p : Fin 10000) (k : Fin 40) :
    zblk2 x0 x1 (ix2 p k) = x0 (ix2 p k) + x1 (ix2 (0 : Fin 1) k) := by
  unfold zblk2
  rw [shapeCast_self, shapeCast_self]
  show x0 (ix2 p k) + broadcastTo S10000x40 x1 broadcasts_S1x40_S10000x40 (ix2 p k) = _
  exact congrArg (x0 (ix2 p k) + ·) (broadcastTo_1b_ab_apply x1 broadcasts_S1x40_S10000x40 p k)

/-- The maximum of row p of the biased block over the 40 classes, from −∞. -/
def mrow2 (x0 : Vec Ideal S10000x40 .f32) (x1 : Vec Ideal S1x40 .f32) (p : Fin 10000) : EReal :=
  (Finset.univ : Finset (Fin 40)).fold max (Ideal.ofBits .f32 0xFF800000#32) (fun k => x0 (ix2 p k) + x1 (ix2 (0 : Fin 1) k))

/-- The row maximum of the biased block, kept as a column and broadcast along the row, read at (p, c). -/
theorem mcol2_apply (x0 : Vec Ideal S10000x40 .f32) (x1 : Vec Ideal S1x40 .f32) (p : Fin 10000) (c : Fin 40) :
    broadcastTo S10000x40 (shapeCast S10000x1
      (multiReduction (F := Ideal) .maximumf [1] S10000 (zblk2 x0 x1) 0xFF800000#32 reduces_S10000x40_S10000 (.inl rfl) rfl)
      shapeCasts_S10000_S10000x1) broadcasts_S10000x1_S10000x40 (ix2 p c) = mrow2 x0 x1 p := by
  refine (Cert.Lib.rowMax_keepdims_apply (a := 10000) (n := 40) (b := 40) (zblk2 x0 x1) 0xFF800000#32
    reduces_S10000x40_S10000 (.inl rfl) rfl shapeCasts_S10000_S10000x1 broadcasts_S10000x1_S10000x40 p c).trans ?_
  unfold mrow2
  exact congrArg (fun f => (Finset.univ : Finset (Fin 40)).fold max (Ideal.ofBits .f32 0xFF800000#32) f)
    (funext fun k => zblk2_apply x0 x1 p k)

/-- Entry (p, q) of the body's value on a [10000, 40] block of logits and the bias row: the biased logit, less the
    maximum of its row, less the logarithm of the row's sum of exponentials of the shifted logits. -/
theorem pay2_apply (x0 : Vec Ideal S10000x40 .f32) (x1 : Vec Ideal S1x40 .f32) (p : Fin 10000) (q : Fin 40) :
    k2_pay1 (F := Ideal) x0 x1 (ix2 p q)
      = ((x0 (ix2 p q) + x1 (ix2 (0 : Fin 1) q)) - mrow2 x0 x1 p)
        - Ideal.log (∑ k : Fin 40, Ideal.exp ((x0 (ix2 p k) + x1 (ix2 (0 : Fin 1) k)) - mrow2 x0 x1 p)) := by
  unfold k2_pay1
  -- the store's value at (p, q): pointwise subtractions around the two row reductions
  show (zblk2 x0 x1 (ix2 p q)
        - broadcastTo S10000x40 (shapeCast S10000x1
            (multiReduction (F := Ideal) .maximumf [1] S10000 (zblk2 x0 x1) 0xFF800000#32 reduces_S10000x40_S10000 (.inl rfl) rfl)
            shapeCasts_S10000_S10000x1) broadcasts_S10000x1_S10000x40 (ix2 p q))
      - broadcastTo S10000x40 (log (F := Ideal) (shapeCast S10000x1
            (multiReduction (F := Ideal) .add [1] S10000
              (exp (F := Ideal) (subf (F := Ideal) (zblk2 x0 x1)
                (broadcastTo S10000x40 (shapeCast S10000x1
                  (multiReduction (F := Ideal) .maximumf [1] S10000 (zblk2 x0 x1) 0xFF800000#32 reduces_S10000x40_S10000 (.inl rfl) rfl)
                  shapeCasts_S10000_S10000x1) broadcasts_S10000x1_S10000x40)))
              0x00000000#32 reduces_S10000x40_S10000 (.inl rfl) rfl)
            shapeCasts_S10000_S10000x1)) broadcasts_S10000x1_S10000x40 (ix2 p q) = _
  rw [mcol2_apply x0 x1 p q, zblk2_apply x0 x1 p q]
  refine congrArg (((x0 (ix2 p q) + x1 (ix2 (0 : Fin 1) q)) - mrow2 x0 x1 p) - ·) ?_
  refine (Cert.Lib.broadcastTo_a1_ab_apply _ broadcasts_S10000x1_S10000x40 p q).trans ?_
  show Ideal.log (shapeCast S10000x1 _ shapeCasts_S10000_S10000x1 (ix2 p (0 : Fin 1))) = _
  refine congrArg Ideal.log ?_
  refine (Cert.Lib.shapeCast_a_a1_apply _ shapeCasts_S10000_S10000x1 p 0).trans ?_
  refine (Cert.Lib.rowSum_apply (a := 10000) (n := 40) _ 0x00000000#32 reduces_S10000x40_S10000 (.inl rfl) rfl p).trans ?_
  refine Finset.sum_congr rfl fun k _ => ?_
  show Ideal.exp (zblk2 x0 x1 (ix2 p k) - _) = _
  rw [mcol2_apply x0 x1 p k, zblk2_apply x0 x1 p k]

/-- The all-zero offset of a block's one access, as a function. -/
theorem zeros2_r2 : (![0, 0] : Fin 2 → Nat) = fun _ => 0 := funext fun a => by fin_cases a <;> rfl

/-- The printed index maps over the grid: the logits block and the output block of point t sit at block row t, block
    column 0; the bias row is always block (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the log-softmax of the biased logits. -/
theorem flushed2_eq (c : Dev nD) (t : Fin cfg2.N) :
    (dat2 V c).flushed 2 t = ((cfg2.win 2).blk t).view.read (Elt Ideal)
      (Cert.Spec.logSoftmaxBias (V c main_v57) (V c main_v58)) := by
  show (cfg2.win 2).cut (grid2.coords t) ((dat2 V c).after 2 t) = _
  rw [after2_2]
  unfold out2_2
  rw [View.canon_unit_zero zeros2_r2]
  simp only [View.ld_unit_zero (S := S10000x40) zeros2_r2, View.ld_unit_zero (S := S1x40) zeros2_r2]
  obtain ⟨e0, e1, e2, e3, e4, e5⟩ := idx2 t
  funext j
  obtain ⟨p, q, rfl⟩ : ∃ (p : Fin 10000) (q : Fin 40), j = ix2 p q := ⟨j 0, j 1, eq_ix2 j⟩
  show k2_pay1 (F := Ideal) (iblk2 V c 0 t) (iblk2 V c 1 t) (ix2 p q)
    = Cert.Spec.logSoftmaxBias (V c main_v57) (V c main_v58) (((cfg2.win 2).blk t).view.emb (ix2 p q))
  refine (pay2_apply (iblk2 V c 0 t) (iblk2 V c 1 t) p q).trans ?_
  -- row p of the block is row 10000·t + p of the array, class by class
  have hx : ∀ k : Fin 40, iblk2 V c 0 t (ix2 p k)
      = V c main_v57 (ix2 ((((cfg2.win 2).blk t).view.emb (ix2 p q)) 0) k) := fun k => by
    show V c main_v57 (((cfg2.win 0).blk t).view.emb (ix2 p k)) = _
    congr 1; funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 40 + 1 * k.val = k.val; omega
  -- the bias block is the bias row itself
  have hb : ∀ k : Fin 40, iblk2 V c 1 t (ix2 (0 : Fin 1) k) = V c main_v58 (ix2 (0 : Fin 1) k) := fun k => by
    show V c main_v58 (((cfg2.win 1).blk t).view.emb (ix2 (0 : Fin 1) k)) = _
    congr 1; funext a; apply Fin.ext
    match a with
    | ⟨0, _⟩ => show win2_1.index t (0 : Fin 2) * 1 + 1 * 0 = 0; omega
    | ⟨1, _⟩ => show win2_1.index t (1 : Fin 2) * 40 + 1 * k.val = k.val; omega
  -- the class coordinate is unchanged: the blocks span all 40 classes
  have hq : (((cfg2.win 2).blk t).view.emb (ix2 p q)) 1 = q := by
    apply Fin.ext
    show win2_2.index t (1 : Fin 2) * 40 + 1 * q.val = q.val; omega
  unfold Cert.Spec.logSoftmaxBias Cert.Spec.rowMax Cert.Spec.logits mrow2
  simp only [hx, hb, hq]

/-- An index of the output array is in point t's block iff each coordinate is in the block's range. -/
theorem mem_blk2 (t : Fin cfg2.N) (i : S100000x40.Idx) :
    i ∈ ((cfg2.win 2).blk t).view.set ↔ ∀ a : Fin 2, win2_2.index t a * S10000x40.size a ≤ (i a).val ∧ (i a).val < win2_2.index t a * S10000x40.size a + S10000x40.size a := by
  show i ∈ ((View.whole main_v59).slice (win2_2.rect t)).set ↔ _
  rw [View.set_slice_whole, Rect.mem_set_unit]
  exact Iff.rfl

/-- The array after the region: the log-softmax of the biased logits of the arrays the region finds. -/
theorem region2_value (c : Dev nD) :
    (dat2 V c).arrAt 2 cfg2.N = Cert.Spec.logSoftmaxBias (V c main_v57) (V c main_v58) :=
  (dat2 V c).arrAt_eq_of_cover 2 _ (fun t _ => flushed2_eq V c t) fun i => by
    have hN : cfg2.N = 10 := N_2
    have hi0 : (i 0).val < 100000 := (i 0).isLt
    have hi1 : (i 1).val < 40 := (i 1).isLt
    refine ⟨⟨(i 0).val / 10000, by omega⟩, flush2_2 _, ?_⟩
    rw [mem_blk2]
    obtain ⟨e0, e1, e2, e3, e4, e5⟩ := idx2 ⟨(i 0).val / 10000, by omega⟩
    intro a
    match a with
    | ⟨0, _⟩ => show win2_2.index _ (0 : Fin 2) * 10000 ≤ (i 0).val ∧ (i 0).val < win2_2.index _ (0 : Fin 2) * 10000 + 10000; rw [e4]; simp only []; omega
    | ⟨1, _⟩ => show win2_2.index _ (1 : Fin 2) * 40 ≤ (i 1).val ∧ (i 1).val < win2_2.index _ (1 : Fin 2) * 40 + 40; rw [e5]; omega

end Cert.KernelIdeal.Hand

end
-- ==== Proof.KernelValue.lean ====
/-
  The idealized kernel's result as one function of its arguments. Folding through the program's eight segments: the host
  builds the edge endpoints and the normalization; the first pallas_call leaves x · W₁; the host aggregates it over the
  edges; the second pallas_call leaves max(agg₁ + b₁, 0) · W₂; the host aggregates that; the third pallas_call leaves the
  log-softmax of agg₂ + b₂. Each pallas_call's array is the whole-array function of the arrays it finds (Region0 … Region2),
  each host stretch writes what KernelStretch reads off it, and a buffer nobody writes keeps its contents.
-/
import proofs.«141634_j22668837388509_1_alg».proof.Proof.KernelStretch
import proofs.«141634_j22668837388509_1_alg».proof.Proof.Region0
import proofs.«141634_j22668837388509_1_alg».proof.Proof.Region1
import proofs.«141634_j22668837388509_1_alg».proof.Proof.Region2

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## At the first pallas_call's entry -/

theorem W3_v3 (c : Dev nD) : W3 m ρ c (Proc.devRef .tc main_v3) = rowOf (m ((c : Thread nD τ).loc main_arg1)) := by
  show after hostOps0_2 (after hostOps0_1 (after hostOps0 (W0 m ρ c))) (Proc.devRef .tc main_v3) = _
  rw [show after hostOps0_2 (after hostOps0_1 (after hostOps0 (W0 m ρ c))) (Proc.devRef .tc main_v3)
      = after hostOps0_1 (after hostOps0 (W0 m ρ c)) (Proc.devRef .tc main_v3) from by after_results,
    s01_v3, s0_v3]

theorem W3_v6 (c : Dev nD) : W3 m ρ c (Proc.devRef .tc main_v6) = colOf (m ((c : Thread nD τ).loc main_arg1)) := by
  show after hostOps0_2 (after hostOps0_1 (after hostOps0 (W0 m ρ c))) (Proc.devRef .tc main_v6) = _
  rw [show after hostOps0_2 (after hostOps0_1 (after hostOps0 (W0 m ρ c))) (Proc.devRef .tc main_v6)
      = after hostOps0_1 (after hostOps0 (W0 m ρ c)) (Proc.devRef .tc main_v6) from by after_results,
    s01_v6, s0_v6]

theorem W3_v30 (c : Dev nD) : W3 m ρ c (Proc.devRef .tc main_v30)
    = normOf (rowOf (m ((c : Thread nD τ).loc main_arg1))) (colOf (m ((c : Thread nD τ).loc main_arg1))) := by
  show after hostOps0_2 (after hostOps0_1 (after hostOps0 (W0 m ρ c))) (Proc.devRef .tc main_v30) = _
  rw [s02_v30, s01_v14, s01_v3, s01_v6, s0_v12, s0_v13, s0_cst2, s0_v3, s0_v6]
  rfl

theorem W3_arg0 (c : Dev nD) : W3 m ρ c (Proc.devRef .tc main_arg0) = m ((c : Thread nD τ).loc main_arg0) := by
  show after hostOps0_2 (after hostOps0_1 (after hostOps0 (W0 m ρ c))) (Proc.devRef .tc main_arg0) = _
  after_results
theorem W3_arg2 (c : Dev nD) : W3 m ρ c (Proc.devRef .tc main_arg2) = m ((c : Thread nD τ).loc main_arg2) := by
  show after hostOps0_2 (after hostOps0_1 (after hostOps0 (W0 m ρ c))) (Proc.devRef .tc main_arg2) = _
  after_results
theorem W3_arg3 (c : Dev nD) : W3 m ρ c (Proc.devRef .tc main_arg3) = m ((c : Thread nD τ).loc main_arg3) := by
  show after hostOps0_2 (after hostOps0_1 (after hostOps0 (W0 m ρ c))) (Proc.devRef .tc main_arg3) = _
  after_results
theorem W3_arg4 (c : Dev nD) : W3 m ρ c (Proc.devRef .tc main_arg4) = m ((c : Thread nD τ).loc main_arg4) := by
  show after hostOps0_2 (after hostOps0_1 (after hostOps0 (W0 m ρ c))) (Proc.devRef .tc main_arg4) = _
  after_results
theorem W3_arg5 (c : Dev nD) : W3 m ρ c (Proc.devRef .tc main_arg5) = m ((c : Thread nD τ).loc main_arg5) := by
  show after hostOps0_2 (after hostOps0_1 (after hostOps0 (W0 m ρ c))) (Proc.devRef .tc main_arg5) = _
  after_results

/-! ## After the first pallas_call: x · W₁ -/

theorem W4_v31 (c : Dev nD) : W4 m ρ c (Proc.devRef .tc main_v31)
    = Cert.Spec.proj (m ((c : Thread nD τ).loc main_arg0)) (m ((c : Thread nD τ).loc main_arg2)) := by
  refine (W4_arr m ρ c 2).trans ((region0_value (V3 m ρ) c).trans ?_)
  show Cert.Spec.proj (W3 m ρ c (Proc.devRef .tc main_arg0)) (W3 m ρ c (Proc.devRef .tc main_arg2)) = _
  rw [W3_arg0, W3_arg2]

/-! ## At the second pallas_call's entry -/

theorem W5_v43 (c : Dev nD) : W5 m ρ c (Proc.devRef .tc main_v43)
    = agg16 (rowOf (m ((c : Thread nD τ).loc main_arg1))) (colOf (m ((c : Thread nD τ).loc main_arg1)))
        (normOf (rowOf (m ((c : Thread nD τ).loc main_arg1))) (colOf (m ((c : Thread nD τ).loc main_arg1))))
        (Cert.Spec.proj (m ((c : Thread nD τ).loc main_arg0)) (m ((c : Thread nD τ).loc main_arg2))) := by
  show after hostOps1 (W4 m ρ c) (Proc.devRef .tc main_v43) = _
  rw [s1_v43, W4_v31, W4_of_ne m ρ c main_v3 (by decide), W4_of_ne m ρ c main_v6 (by decide),
    W4_of_ne m ρ c main_v30 (by decide), W3_v3, W3_v6, W3_v30]

theorem W5_v44 (c : Dev nD) : W5 m ρ c (Proc.devRef .tc main_v44)
    = shapeCast S1x16 (m ((c : Thread nD τ).loc main_arg3)) shapeCasts_S16_S1x16 := by
  show after hostOps1 (W4 m ρ c) (Proc.devRef .tc main_v44) = _
  rw [s1_v44, W4_of_ne m ρ c main_arg3 (by decide), W3_arg3]

theorem W5_keep (c : Dev nD) (b : Ref sig .tc) (h0 : ∀ w, Pipeline.arrRef spec0 w ≠ b)
    (h1 : after hostOps1 (W4 m ρ c) (Proc.devRef .tc b) = W4 m ρ c (Proc.devRef .tc b)) :
    W5 m ρ c (Proc.devRef .tc b) = W3 m ρ c (Proc.devRef .tc b) :=
  h1.trans (W4_of_ne m ρ c b h0)

theorem W5_arg4 (c : Dev nD) : W5 m ρ c (Proc.devRef .tc main_arg4) = m ((c : Thread nD τ).loc main_arg4) :=
  (W5_keep m ρ c main_arg4 (by decide) (by after_results)).trans (W3_arg4 m ρ c)
theorem W5_arg5 (c : Dev nD) : W5 m ρ c (Proc.devRef .tc main_arg5) = m ((c : Thread nD τ).loc main_arg5) :=
  (W5_keep m ρ c main_arg5 (by decide) (by after_results)).trans (W3_arg5 m ρ c)
theorem W5_v3 (c : Dev nD) : W5 m ρ c (Proc.devRef .tc main_v3) = rowOf (m ((c : Thread nD τ).loc main_arg1)) :=
  (W5_keep m ρ c main_v3 (by decide) (by after_results)).trans (W3_v3 m ρ c)
theorem W5_v6 (c : Dev nD) : W5 m ρ c (Proc.devRef .tc main_v6) = colOf (m ((c : Thread nD τ).loc main_arg1)) :=
  (W5_keep m ρ c main_v6 (by decide) (by after_results)).trans (W3_v6 m ρ c)
theorem W5_v30 (c : Dev nD) : W5 m ρ c (Proc.devRef .tc main_v30)
    = normOf (rowOf (m ((c : Thread nD τ).loc main_arg1))) (colOf (m ((c : Thread nD τ).loc main_arg1))) :=
  (W5_keep m ρ c main_v30 (by decide) (by after_results)).trans (W3_v30 m ρ c)

/-! ## After the second pallas_call: max(agg₁ + b₁, 0) · W₂ -/

/-- The first layer aggregated over the edges. -/
abbrev layer1 (c : Dev nD) :=
  agg16 (rowOf (m ((c : Thread nD τ).loc main_arg1))) (colOf (m ((c : Thread nD τ).loc main_arg1)))
    (normOf (rowOf (m ((c : Thread nD τ).loc main_arg1))) (colOf (m ((c : Thread nD τ).loc main_arg1))))
    (Cert.Spec.proj (m ((c : Thread nD τ).loc main_arg0)) (m ((c : Thread nD τ).loc main_arg2)))

theorem W6_v45 (c : Dev nD) : W6 m ρ c (Proc.devRef .tc main_v45)
    = Cert.Spec.hidden (layer1 m c) (shapeCast S1x16 (m ((c : Thread nD τ).loc main_arg3)) shapeCasts_S16_S1x16)
        (m ((c : Thread nD τ).loc main_arg4)) := by
  refine (W6_arr m ρ c 3).trans ((region1_value (V5 m ρ) c).trans ?_)
  show Cert.Spec.hidden (W5 m ρ c (Proc.devRef .tc main_v43)) (W5 m ρ c (Proc.devRef .tc main_v44)) (W5 m ρ c (Proc.devRef .tc main_arg4)) = _
  rw [W5_v43, W5_v44, W5_arg4]

/-! ## At the third pallas_call's entry, and after it -/

/-- The second layer aggregated over the edges. -/
abbrev layer2 (c : Dev nD) :=
  agg40 (rowOf (m ((c : Thread nD τ).loc main_arg1))) (colOf (m ((c : Thread nD τ).loc main_arg1)))
    (normOf (rowOf (m ((c : Thread nD τ).loc main_arg1))) (colOf (m ((c : Thread nD τ).loc main_arg1))))
    (Cert.Spec.hidden (layer1 m c) (shapeCast S1x16 (m ((c : Thread nD τ).loc main_arg3)) shapeCasts_S16_S1x16)
      (m ((c : Thread nD τ).loc main_arg4)))

theorem W7_v57 (c : Dev nD) : W7 m ρ c (Proc.devRef .tc main_v57) = layer2 m c := by
  show after hostOps2 (W6 m ρ c) (Proc.devRef .tc main_v57) = _
  rw [s2_v57, W6_v45, W6_of_ne m ρ c main_v3 (by decide), W6_of_ne m ρ c main_v6 (by decide),
    W6_of_ne m ρ c main_v30 (by decide), W5_v3, W5_v6, W5_v30]

theorem W7_v58 (c : Dev nD) : W7 m ρ c (Proc.devRef .tc main_v58)
    = shapeCast S1x40 (m ((c : Thread nD τ).loc main_arg5)) shapeCasts_S40_S1x40 := by
  show after hostOps2 (W6 m ρ c) (Proc.devRef .tc main_v58) = _
  rw [s2_v58, W6_of_ne m ρ c main_arg5 (by decide), W5_arg5]

/-- The result array after the run: the log-softmax of the second aggregated layer plus its bias. -/
theorem kernel_value (c : Dev nD) : W8 m ρ c (Proc.devRef .tc main_v59)
    = Cert.Spec.logSoftmaxBias (layer2 m c) (shapeCast S1x40 (m ((c : Thread nD τ).loc main_arg5)) shapeCasts_S40_S1x40) := by
  refine (W8_arr m ρ c 2).trans ((region2_value (V7 m ρ) c).trans ?_)
  show Cert.Spec.logSoftmaxBias (W7 m ρ c (Proc.devRef .tc main_v57)) (W7 m ρ c (Proc.devRef .tc main_v58)) = _
  rw [W7_v57, W7_v58]

end Cert.KernelIdeal.Hand

end
-- ==== Proof.RefRun.lean ====
/-
  The reference's run: its host program is a straight line of 98 operations (the outlined where, relu and log_softmax
  stand in their calls' places), so every weakly fair execution terminates with each buffer at the fold of the
  operations' results over the launch contents.
-/
import proofs.«141634_j22668837388509_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 98 operations, in order. -/
abbrev ops : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)),
    binary main_arg0 main_arg2 main_v30 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    unary main_v29 main_v31 (broadcastInDim S3300000x1 ![0] bcast_S3300000_S3300000x1_0 : (⟨S3300000, .f32⟩ : BufTy).Contents (Elt F) → (⟨S3300000x1, .f32⟩ : BufTy).Contents (Elt F)),
    nullary main_c_6 (constantI S_ 32 0#32),
    unary main_c_6 main_v32 (broadcastInDim S3300000 ![] bcast_S_S3300000 : (⟨S_, .i32⟩ : BufTy).Contents (Elt F) → (⟨S3300000, .i32⟩ : BufTy).Contents (Elt F)),
    binary main_v3 main_v32 main_v33 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v34 (broadcastInDim S3300000 ![] bcast_S_S3300000 : (⟨S_, .i32⟩ : BufTy).Contents (Elt F) → (⟨S3300000, .i32⟩ : BufTy).Contents (Elt F)),
    binary main_v3 main_v34 main_v35 (addi : (⟨S3300000, .i32⟩ : BufTy).Contents (Elt F) → (⟨S3300000, .i32⟩ : BufTy).Contents (Elt F) → (⟨S3300000, .i32⟩ : BufTy).Contents (Elt F)),
    ternary main_v33 main_v35 main_v3 main_v36 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v36 main_v37 (broadcastInDim S3300000x1 ![0] bcast_S3300000_S3300000x1_0 : (⟨S3300000, .i32⟩ : BufTy).Contents (Elt F) → (⟨S3300000x1, .i32⟩ : BufTy).Contents (Elt F)),
    binary main_v30 main_v37 main_v38 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v31 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v39 main_v38 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf,
    binary main_v47 main_arg4 main_v48 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    unary main_v29 main_v49 (broadcastInDim S3300000x1 ![0] bcast_S3300000_S3300000x1_0 : (⟨S3300000, .f32⟩ : BufTy).Contents (Elt F) → (⟨S3300000x1, .f32⟩ : BufTy).Contents (Elt F)),
    nullary main_c_9 (constantI S_ 32 0#32),
    unary main_c_9 main_v50 (broadcastInDim S3300000 ![] bcast_S_S3300000 : (⟨S_, .i32⟩ : BufTy).Contents (Elt F) → (⟨S3300000, .i32⟩ : BufTy).Contents (Elt F)),
    binary main_v3 main_v50 main_v51 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v52 (broadcastInDim S3300000 ![] bcast_S_S3300000 : (⟨S_, .i32⟩ : BufTy).Contents (Elt F) → (⟨S3300000, .i32⟩ : BufTy).Contents (Elt F)),
    binary main_v3 main_v52 main_v53 (addi : (⟨S3300000, .i32⟩ : BufTy).Contents (Elt F) → (⟨S3300000, .i32⟩ : BufTy).Contents (Elt F) → (⟨S3300000, .i32⟩ : BufTy).Contents (Elt F)),
    ternary main_v51 main_v53 main_v3 main_v54 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v54 main_v55 (broadcastInDim S3300000x1 ![0] bcast_S3300000_S3300000x1_0 : (⟨S3300000, .i32⟩ : BufTy).Contents (Elt F) → (⟨S3300000x1, .i32⟩ : BufTy).Contents (Elt F)),
    binary main_v48 main_v55 main_v56 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v49 main_v57 (broadcastInDim S3300000x40 ![0, 1] bcast_S3300000x1_S3300000x40_0_1 : (⟨S3300000x1, .f32⟩ : BufTy).Contents (Elt F) → (⟨S3300000x40, .f32⟩ : BufTy).Contents (Elt F)),
    binary main_v57 main_v56 main_v58 (mulf : (⟨S3300000x40, .f32⟩ : BufTy).Contents (Elt F) → (⟨S3300000x40, .f32⟩ : BufTy).Contents (Elt F) → (⟨S3300000x40, .f32⟩ : BufTy).Contents (Elt F)),
    nullary main_cst_11 (constant S_ .f32 0x00000000#32),
    unary main_cst_11 main_v59 (broadcastInDim S100000x40 ![] bcast_S_S100000x40 : (⟨S_, .f32⟩ : BufTy).Contents (Elt F) → (⟨S100000x40, .f32⟩ : BufTy).Contents (Elt F)),
    unary main_v6 main_v60 (broadcastInDim S3300000x1 ![0] bcast_S3300000_S3300000x1_0 : (⟨S3300000, .i32⟩ : BufTy).Contents (Elt F) → (⟨S3300000x1, .i32⟩ : BufTy).Contents (Elt F)),
    ternary main_v59 main_v60 main_v58 main_v61 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)),
    unary main_arg5 main_v62 (broadcastInDim S1x40 ![1] bcast_S40_S1x40_1 : (⟨S40, .f32⟩ : BufTy).Contents (Elt F) → (⟨S1x40, .f32⟩ : BufTy).Contents (Elt F)),
    unary main_v62 main_v63 (broadcastInDim S100000x40 ![0, 1] bcast_S1x40_S100000x40_0_1 : (⟨S1x40, .f32⟩ : BufTy).Contents (Elt F) → (⟨S100000x40, .f32⟩ : BufTy).Contents (Elt F)),
    binary main_v61 main_v63 main_v64 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call2_cst) (constant S_ .f32 0xFF800000#32),
    TRef.binary (TRef.of (T := ⟨S100000x40, .f32⟩) main_v64) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v64) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v65) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., binary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., binary_bufs_sub .., nullary_bufs_sub .., unary_bufs_sub ..,
    unary_bufs_sub .., ternary_bufs_sub .., unary_bufs_sub .., unary_bufs_sub .., binary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    unary_bufs_sub .., binary_bufs_sub ..⟩

set_option maxRecDepth 8192 in
set_option maxHeartbeats 4000000 in
/-- Every weakly fair execution of the reference terminates with every buffer at the operations' fold over its launch
    contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.Hand

end
-- ==== Proof.RefParts.lean ====
/-
  The dense stages of the reference, as the host computes them on whole arrays: the bias rows broadcast over the
  nodes, the rectified hidden layer multiplied by W₂, and log-softmax over the class axis as
  (z − M) − log Σ exp(z − M) with M the row maximum of z.
-/
import proofs.«141634_j22668837388509_1_alg».proof.Proof.Gen.ReferenceIdeal

noncomputable section

namespace Cert.ReferenceIdeal.Hand

open Cert.ReferenceIdeal Cert.ReferenceIdeal.Gen
open Idealize.ShloMosaic

variable {F : FTy → Type} [FloatOps F]

/-- The 16-entry bias as a row repeated over the nodes. -/
def bias16 (b : (⟨S16, .f32⟩ : BufTy).Contents (Elt F)) : (⟨S100000x16, .f32⟩ : BufTy).Contents (Elt F) :=
  broadcastInDim S100000x16 ![0, 1] bcast_S1x16_S100000x16_0_1 (broadcastInDim S1x16 ![1] bcast_S16_S1x16_1 b)

/-- The 40-entry bias as a row repeated over the nodes. -/
def bias40 (b : (⟨S40, .f32⟩ : BufTy).Contents (Elt F)) : (⟨S100000x40, .f32⟩ : BufTy).Contents (Elt F) :=
  broadcastInDim S100000x40 ![0, 1] bcast_S1x40_S100000x40_0_1 (broadcastInDim S1x40 ![1] bcast_S40_S1x40_1 b)

/-- x · W₁ on the host. -/
def projHost (x : (⟨S100000x512, .f32⟩ : BufTy).Contents (Elt F)) (w : (⟨S512x16, .f32⟩ : BufTy).Contents (Elt F)) :
    (⟨S100000x16, .f32⟩ : BufTy).Contents (Elt F) :=
  Host.dotGeneral dot_S100000x512_S512x16_S100000x16_1_0_0_1_n_n none x w

/-- max(a + b, 0) · W₂ on the host. -/
def hiddenHost (a : (⟨S100000x16, .f32⟩ : BufTy).Contents (Elt F)) (b : (⟨S16, .f32⟩ : BufTy).Contents (Elt F))
    (w : (⟨S16x40, .f32⟩ : BufTy).Contents (Elt F)) : (⟨S100000x40, .f32⟩ : BufTy).Contents (Elt F) :=
  Host.dotGeneral dot_S100000x16_S16x40_S100000x40_1_0_0_1_n_n none
    (maximumf (addf a (bias16 b)) (broadcastInDim S100000x16 ![] bcast_S_S100000x16 (constant S_ .f32 0x00000000#32))) w

/-- The row maxima of z, as the host takes them: the reduction from −∞, then the maximum with −∞. -/
def rowMaxHost (z : (⟨S100000x40, .f32⟩ : BufTy).Contents (Elt F)) : (⟨S100000, .f32⟩ : BufTy).Contents (Elt F) :=
  maximumf (broadcastInDim S100000 ![] bcast_S_S100000 (constant S_ .f32 0xFF800000#32))
    (Host.reduce FloatOps.maximumf z (constant S_ .f32 0xFF800000#32) reducesTo_S100000x40_S100000_d1 h_S_)

/-- z shifted by its row maxima. -/
def shiftedHost (z : (⟨S100000x40, .f32⟩ : BufTy).Contents (Elt F)) : (⟨S100000x40, .f32⟩ : BufTy).Contents (Elt F) :=
  subf z (broadcastInDim S100000x40 ![0, 1] bcast_S100000x1_S100000x40_0_1
    (broadcastInDim S100000x1 ![0] bcast_S100000_S100000x1_0 (rowMaxHost z)))

/-- log-softmax over the class axis on the host. -/
def lsmHost (z : (⟨S100000x40, .f32⟩ : BufTy).Contents (Elt F)) : (⟨S100000x40, .f32⟩ : BufTy).Contents (Elt F) :=
  subf (shiftedHost z) (broadcastInDim S100000x40 ![0, 1] bcast_S100000x1_S100000x40_0_1
    (Host.log (broadcastInDim S100000x1 ![0] bcast_S100000_S100000x1_0
      (Host.reduceAdd (Host.exp (shiftedHost z)) (constant S_ .f32 0x00000000#32) reducesTo_S100000x40_S100000_d1 h_S_))))

end Cert.ReferenceIdeal.Hand

end
-- ==== Proof.RefValue.lean ====
/-
  The reference's result as one function of its arguments. Its 98 host operations are read in six stretches: the edge
  endpoints, degree test and inverse square roots; the outlined select; the per-edge normalization; the first layer
  (x · W₁, aggregated over the edges, biased, rectified, multiplied by W₂); the second layer (aggregated, biased); the
  outlined log-softmax. The sparse operations are the very ones the kernel's host side runs, so they are stated with the same
  functions (rowOf, colOf, degOf, wrapIdx, agg16, agg40).
-/
import proofs.«141634_j22668837388509_1_alg».proof.Proof.RefRun
import proofs.«141634_j22668837388509_1_alg».proof.Proof.RefParts
import proofs.«141634_j22668837388509_1_alg».proof.Proof.HostPart

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The edge endpoints with the self-loops, the degrees, the degree test and the inverse square roots. -/
abbrev opsA : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- The outlined select. -/
abbrev opsB : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- The per-edge normalization. -/
abbrev opsC : List (HloOp τ sig (Elt F)) :=
  [ nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)) ]

/-- The first layer. -/
abbrev opsD : List (HloOp τ sig (Elt F)) :=
  [ binary main_arg0 main_arg2 main_v30 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    unary main_v29 main_v31 (broadcastInDim S3300000x1 ![0] bcast_S3300000_S3300000x1_0 : (⟨S3300000, .f32⟩ : BufTy).Contents (Elt F) → (⟨S3300000x1, .f32⟩ : BufTy).Contents (Elt F)),
    nullary main_c_6 (constantI S_ 32 0#32),
    unary main_c_6 main_v32 (broadcastInDim S3300000 ![] bcast_S_S3300000 : (⟨S_, .i32⟩ : BufTy).Contents (Elt F) → (⟨S3300000, .i32⟩ : BufTy).Contents (Elt F)),
    binary main_v3 main_v32 main_v33 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v34 (broadcastInDim S3300000 ![] bcast_S_S3300000 : (⟨S_, .i32⟩ : BufTy).Contents (Elt F) → (⟨S3300000, .i32⟩ : BufTy).Contents (Elt F)),
    binary main_v3 main_v34 main_v35 (addi : (⟨S3300000, .i32⟩ : BufTy).Contents (Elt F) → (⟨S3300000, .i32⟩ : BufTy).Contents (Elt F) → (⟨S3300000, .i32⟩ : BufTy).Contents (Elt F)),
    ternary main_v33 main_v35 main_v3 main_v36 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v36 main_v37 (broadcastInDim S3300000x1 ![0] bcast_S3300000_S3300000x1_0 : (⟨S3300000, .i32⟩ : BufTy).Contents (Elt F) → (⟨S3300000x1, .i32⟩ : BufTy).Contents (Elt F)),
    binary main_v30 main_v37 main_v38 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v31 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v39 main_v38 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf,
    binary main_v47 main_arg4 main_v48 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)) ]

/-- The second layer: aggregated over the edges and biased. -/
abbrev opsE : List (HloOp τ sig (Elt F)) :=
  [ unary main_v29 main_v49 (broadcastInDim S3300000x1 ![0] bcast_S3300000_S3300000x1_0 : (⟨S3300000, .f32⟩ : BufTy).Contents (Elt F) → (⟨S3300000x1, .f32⟩ : BufTy).Contents (Elt F)),
    nullary main_c_9 (constantI S_ 32 0#32),
    unary main_c_9 main_v50 (broadcastInDim S3300000 ![] bcast_S_S3300000 : (⟨S_, .i32⟩ : BufTy).Contents (Elt F) → (⟨S3300000, .i32⟩ : BufTy).Contents (Elt F)),
    binary main_v3 main_v50 main_v51 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v52 (broadcastInDim S3300000 ![] bcast_S_S3300000 : (⟨S_, .i32⟩ : BufTy).Contents (Elt F) → (⟨S3300000, .i32⟩ : BufTy).Contents (Elt F)),
    binary main_v3 main_v52 main_v53 (addi : (⟨S3300000, .i32⟩ : BufTy).Contents (Elt F) → (⟨S3300000, .i32⟩ : BufTy).Contents (Elt F) → (⟨S3300000, .i32⟩ : BufTy).Contents (Elt F)),
    ternary main_v51 main_v53 main_v3 main_v54 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v54 main_v55 (broadcastInDim S3300000x1 ![0] bcast_S3300000_S3300000x1_0 : (⟨S3300000, .i32⟩ : BufTy).Contents (Elt F) → (⟨S3300000x1, .i32⟩ : BufTy).Contents (Elt F)),
    binary main_v48 main_v55 main_v56 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v49 main_v57 (broadcastInDim S3300000x40 ![0, 1] bcast_S3300000x1_S3300000x40_0_1 : (⟨S3300000x1, .f32⟩ : BufTy).Contents (Elt F) → (⟨S3300000x40, .f32⟩ : BufTy).Contents (Elt F)),
    binary main_v57 main_v56 main_v58 (mulf : (⟨S3300000x40, .f32⟩ : BufTy).Contents (Elt F) → (⟨S3300000x40, .f32⟩ : BufTy).Contents (Elt F) → (⟨S3300000x40, .f32⟩ : BufTy).Contents (Elt F)),
    nullary main_cst_11 (constant S_ .f32 0x00000000#32),
    unary main_cst_11 main_v59 (broadcastInDim S100000x40 ![] bcast_S_S100000x40 : (⟨S_, .f32⟩ : BufTy).Contents (Elt F) → (⟨S100000x40, .f32⟩ : BufTy).Contents (Elt F)),
    unary main_v6 main_v60 (broadcastInDim S3300000x1 ![0] bcast_S3300000_S3300000x1_0 : (⟨S3300000, .i32⟩ : BufTy).Contents (Elt F) → (⟨S3300000x1, .i32⟩ : BufTy).Contents (Elt F)),
    ternary main_v59 main_v60 main_v58 main_v61 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)),
    unary main_arg5 main_v62 (broadcastInDim S1x40 ![1] bcast_S40_S1x40_1 : (⟨S40, .f32⟩ : BufTy).Contents (Elt F) → (⟨S1x40, .f32⟩ : BufTy).Contents (Elt F)),
    unary main_v62 main_v63 (broadcastInDim S100000x40 ![0, 1] bcast_S1x40_S100000x40_0_1 : (⟨S1x40, .f32⟩ : BufTy).Contents (Elt F) → (⟨S100000x40, .f32⟩ : BufTy).Contents (Elt F)),
    binary main_v61 main_v63 main_v64 (addf : (⟨S100000x40, .f32⟩ : BufTy).Contents (Elt F) → (⟨S100000x40, .f32⟩ : BufTy).Contents (Elt F) → (⟨S100000x40, .f32⟩ : BufTy).Contents (Elt F)) ]

/-- The outlined log-softmax. -/
abbrev opsG : List (HloOp τ sig (Elt F)) :=
  [ TRef.nullary (TRef.of (T := ⟨S_, .f32⟩) main_call2_cst) (constant S_ .f32 0xFF800000#32),
    TRef.binary (TRef.of (T := ⟨S100000x40, .f32⟩) main_v64) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v64) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v65) subf ]

/-- The program is the six stretches in order. -/
theorem ops_split : (ops : List (HloOp τ sig (Elt F))) = opsA ++ (opsB ++ (opsC ++ (opsD ++ (opsE ++ opsG)))) := rfl

/-- Operations run one stretch after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

variable (X : Valuation τ sig (Elt F))

/-! ## The first stretch -/

theorem rA_v3 : after opsA X (Proc.devRef .tc main_v3) = Cert.KernelIdeal.Hand.rowOf (X (Proc.devRef .tc main_arg1)) := by
  after_results; rfl

theorem rA_v6 : after opsA X (Proc.devRef .tc main_v6) = Cert.KernelIdeal.Hand.colOf (X (Proc.devRef .tc main_arg1)) := by
  after_results; rfl

theorem rA_v12 : after opsA X (Proc.devRef .tc main_v12)
    = cmpf .ogt (Cert.KernelIdeal.Hand.degOf (Cert.KernelIdeal.Hand.colOf (X (Proc.devRef .tc main_arg1)))) (broadcastInDim S100000 ![] bcast_S_S100000 (constant S_ .f32 0x00000000#32)) := by
  after_results; rfl

theorem rA_v13 : after opsA X (Proc.devRef .tc main_v13) = Host.rsqrt (Cert.KernelIdeal.Hand.degOf (Cert.KernelIdeal.Hand.colOf (X (Proc.devRef .tc main_arg1)))) := by
  after_results; rfl

theorem rA_cst2 : after opsA X (Proc.devRef .tc main_cst_2) = constant S_ .f32 0x00000000#32 := by
  after_results

theorem rA_arg0 : after opsA X (Proc.devRef .tc main_arg0) = X (Proc.devRef .tc main_arg0) := by after_results
theorem rA_arg2 : after opsA X (Proc.devRef .tc main_arg2) = X (Proc.devRef .tc main_arg2) := by after_results
theorem rA_arg3 : after opsA X (Proc.devRef .tc main_arg3) = X (Proc.devRef .tc main_arg3) := by after_results
theorem rA_arg4 : after opsA X (Proc.devRef .tc main_arg4) = X (Proc.devRef .tc main_arg4) := by after_results
theorem rA_arg5 : after opsA X (Proc.devRef .tc main_arg5) = X (Proc.devRef .tc main_arg5) := by after_results

/-! ## The outlined select -/

theorem rB_v14 : after opsB X (Proc.devRef .tc main_v14)
    = select (X (Proc.devRef .tc main_v12)) (X (Proc.devRef .tc main_v13))
        (broadcastInDim S100000 ![] bcast_S_S100000 (id (X (Proc.devRef .tc main_cst_2)))) := by
  after_results; rfl

theorem rB_v3 : after opsB X (Proc.devRef .tc main_v3) = X (Proc.devRef .tc main_v3) := by after_results
theorem rB_v6 : after opsB X (Proc.devRef .tc main_v6) = X (Proc.devRef .tc main_v6) := by after_results
theorem rB_arg0 : after opsB X (Proc.devRef .tc main_arg0) = X (Proc.devRef .tc main_arg0) := by after_results
theorem rB_arg2 : after opsB X (Proc.devRef .tc main_arg2) = X (Proc.devRef .tc main_arg2) := by after_results
theorem rB_arg3 : after opsB X (Proc.devRef .tc main_arg3) = X (Proc.devRef .tc main_arg3) := by after_results
theorem rB_arg4 : after opsB X (Proc.devRef .tc main_arg4) = X (Proc.devRef .tc main_arg4) := by after_results
theorem rB_arg5 : after opsB X (Proc.devRef .tc main_arg5) = X (Proc.devRef .tc main_arg5) := by after_results

/-! ## The per-edge normalization -/

theorem rC_v29 : after opsC X (Proc.devRef .tc main_v29)
    = mulf (Host.gather gather_S100000_S3300000x1_S3300000_n_0_n_n_0_1_1 (X (Proc.devRef .tc main_v14)) (Cert.KernelIdeal.Hand.wrapIdx (X (Proc.devRef .tc main_v3))))
        (Host.gather gather_S100000_S3300000x1_S3300000_n_0_n_n_0_1_1 (X (Proc.devRef .tc main_v14)) (Cert.KernelIdeal.Hand.wrapIdx (X (Proc.devRef .tc main_v6)))) := by
  after_results_simp; rfl

theorem rC_v3 : after opsC X (Proc.devRef .tc main_v3) = X (Proc.devRef .tc main_v3) := by after_results
theorem rC_v6 : after opsC X (Proc.devRef .tc main_v6) = X (Proc.devRef .tc main_v6) := by after_results
theorem rC_arg0 : after opsC X (Proc.devRef .tc main_arg0) = X (Proc.devRef .tc main_arg0) := by after_results
theorem rC_arg2 : after opsC X (Proc.devRef .tc main_arg2) = X (Proc.devRef .tc main_arg2) := by after_results
theorem rC_arg3 : after opsC X (Proc.devRef .tc main_arg3) = X (Proc.devRef .tc main_arg3) := by after_results
theorem rC_arg4 : after opsC X (Proc.devRef .tc main_arg4) = X (Proc.devRef .tc main_arg4) := by after_results
theorem rC_arg5 : after opsC X (Proc.devRef .tc main_arg5) = X (Proc.devRef .tc main_arg5) := by after_results

/-! ## The first layer -/

theorem rD_v48 : after opsD X (Proc.devRef .tc main_v48)
    = hiddenHost (Cert.KernelIdeal.Hand.agg16 (X (Proc.devRef .tc main_v3)) (X (Proc.devRef .tc main_v6))
        (broadcastInDim S3300000x1 ![0] bcast_S3300000_S3300000x1_0 (X (Proc.devRef .tc main_v29)))
        (projHost (X (Proc.devRef .tc main_arg0)) (X (Proc.devRef .tc main_arg2))))
      (X (Proc.devRef .tc main_arg3)) (X (Proc.devRef .tc main_arg4)) := by
  after_results_simp; rfl

theorem rD_v3 : after opsD X (Proc.devRef .tc main_v3) = X (Proc.devRef .tc main_v3) := by after_results
theorem rD_v6 : after opsD X (Proc.devRef .tc main_v6) = X (Proc.devRef .tc main_v6) := by after_results
theorem rD_v29 : after opsD X (Proc.devRef .tc main_v29) = X (Proc.devRef .tc main_v29) := by after_results
theorem rD_arg5 : after opsD X (Proc.devRef .tc main_arg5) = X (Proc.devRef .tc main_arg5) := by after_results

/-! ## The second layer -/

theorem rE_v64 : after opsE X (Proc.devRef .tc main_v64)
    = addf (Cert.KernelIdeal.Hand.agg40 (X (Proc.devRef .tc main_v3)) (X (Proc.devRef .tc main_v6))
        (broadcastInDim S3300000x1 ![0] bcast_S3300000_S3300000x1_0 (X (Proc.devRef .tc main_v29)))
        (X (Proc.devRef .tc main_v48))) (bias40 (X (Proc.devRef .tc main_arg5))) := by
  after_results_simp; rfl

end Cert.ReferenceIdeal.Hand

end
-- ==== Proof.RefValueE.lean ====
/-
  The reference's last stretch, read as a value: the outlined log-softmax over the class axis, as a function of the
  biased second layer it finds — the row maxima, the shifted logits, the logarithm of the row sums of their
  exponentials, the difference. The two reductions over the class axis (the maximum and the sum) enter the reading
  only as functions applied to their operands, so the stretch is first read with the two reductions as parameters.
-/
import proofs.«141634_j22668837388509_1_alg».proof.Proof.RefValue

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]
variable (R S : (⟨S100000x40, .f32⟩ : BufTy).Contents (Elt F) → (⟨S_, .f32⟩ : BufTy).Contents (Elt F) → (⟨S100000, .f32⟩ : BufTy).Contents (Elt F))

/-- The outlined log-softmax with its two reductions over the class axis as parameters. -/
abbrev opsGen : List (HloOp τ sig (Elt F)) :=
  [ TRef.nullary (TRef.of (T := ⟨S_, .f32⟩) main_call2_cst) (constant S_ .f32 0xFF800000#32),
    TRef.binary (TRef.of (T := ⟨S100000x40, .f32⟩) main_v64) (TRef.of (T := ⟨S_, .f32⟩) main_call2_cst) (TRef.of (T := ⟨S100000, .f32⟩) main_call2_v0) R,
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v64) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) S,
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v65) subf ]

/-- z shifted by its row maxima, the maximum-reduction a parameter. -/
def shiftedGen (z : (⟨S100000x40, .f32⟩ : BufTy).Contents (Elt F)) : (⟨S100000x40, .f32⟩ : BufTy).Contents (Elt F) :=
  subf z (broadcastInDim S100000x40 ![0, 1] bcast_S100000x1_S100000x40_0_1
    (broadcastInDim S100000x1 ![0] bcast_S100000_S100000x1_0
      (maximumf (broadcastInDim S100000 ![] bcast_S_S100000 (constant S_ .f32 0xFF800000#32))
        (R z (constant S_ .f32 0xFF800000#32)))))

/-- log-softmax with the two reductions as parameters. -/
def lsmGen (z : (⟨S100000x40, .f32⟩ : BufTy).Contents (Elt F)) : (⟨S100000x40, .f32⟩ : BufTy).Contents (Elt F) :=
  subf (shiftedGen R z) (broadcastInDim S100000x40 ![0, 1] bcast_S100000x1_S100000x40_0_1
    (Host.log (broadcastInDim S100000x1 ![0] bcast_S100000_S100000x1_0
      (S (Host.exp (shiftedGen R z)) (constant S_ .f32 0x00000000#32)))))

variable (X : Valuation τ sig (Elt F))

theorem rGen_v65 : after (opsGen R S) X (Proc.devRef .tc main_v65) = lsmGen R S (X (Proc.devRef .tc main_v64)) := by
  after_results_simp; rfl

/-- The stretch is the parametrized one at the host's two reductions. -/
theorem opsG_eq : (opsG : List (HloOp τ sig (Elt F)))
    = opsGen (fun x v => Host.reduce FloatOps.maximumf x v reducesTo_S100000x40_S100000_d1 h_S_)
        (fun x v => Host.reduceAdd x v reducesTo_S100000x40_S100000_d1 h_S_) := rfl

/-- And the host's log-softmax is the parametrized one there. -/
theorem lsmHost_eq (z : (⟨S100000x40, .f32⟩ : BufTy).Contents (Elt F)) :
    lsmHost z = lsmGen (fun x v => Host.reduce FloatOps.maximumf x v reducesTo_S100000x40_S100000_d1 h_S_)
        (fun x v => Host.reduceAdd x v reducesTo_S100000x40_S100000_d1 h_S_) z := rfl

theorem rG_v65 : after opsG X (Proc.devRef .tc main_v65) = lsmHost (X (Proc.devRef .tc main_v64)) := by
  rw [opsG_eq, rGen_v65, lsmHost_eq]

end Cert.ReferenceIdeal.Hand

end
-- ==== Proof.RefFold.lean ====
/-
  The reference's fold, composed: its result buffer as one function of the six arguments, and each argument unchanged.
-/
import proofs.«141634_j22668837388509_1_alg».proof.Proof.RefValueE

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.KernelIdeal.Hand (rowOf colOf normOf agg16 agg40)

variable {F : FTy → Type} [FloatOps F]

/-- The reference as one function of its arguments: log-softmax of the twice aggregated, biased layers. -/
def refOut (x : (⟨S100000x512, .f32⟩ : BufTy).Contents (Elt F)) (e : (⟨S2x3200000, .i32⟩ : BufTy).Contents (Elt F))
    (w1 : (⟨S512x16, .f32⟩ : BufTy).Contents (Elt F)) (b1 : (⟨S16, .f32⟩ : BufTy).Contents (Elt F))
    (w2 : (⟨S16x40, .f32⟩ : BufTy).Contents (Elt F)) (b2 : (⟨S40, .f32⟩ : BufTy).Contents (Elt F)) :
    (⟨S100000x40, .f32⟩ : BufTy).Contents (Elt F) :=
  lsmHost (addf (agg40 (rowOf e) (colOf e) (normOf (rowOf e) (colOf e))
    (hiddenHost (agg16 (rowOf e) (colOf e) (normOf (rowOf e) (colOf e)) (projHost x w1)) b1 w2)) (bias40 b2))

variable (m : (ℓ : Loc nD τ sig) → Buf (Elt F) ℓ)

theorem ref_value (c : Dev nD) : after ops (launchContents m c) (Proc.devRef .tc main_v65)
    = refOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  rw [ops_split]
  simp only [after_append]
  rw [rG_v65, rE_v64, rD_v48, rD_v3, rD_v6, rD_v29, rD_arg5, rC_v29, rC_v3, rC_v6, rC_arg0, rC_arg2, rC_arg3, rC_arg4, rC_arg5,
    rB_v14, rB_v3, rB_v6, rB_arg0, rB_arg2, rB_arg3, rB_arg4, rB_arg5,
    rA_v12, rA_v13, rA_cst2, rA_v3, rA_v6, rA_arg0, rA_arg2, rA_arg3, rA_arg4, rA_arg5]
  rfl

theorem ref_arg0 (c : Dev nD) : after ops (launchContents m c) (Proc.devRef .tc main_arg0) = m ((c.tc : Thread nD τ).loc main_arg0) := by
  after_results_simp <;> rfl
theorem ref_arg1 (c : Dev nD) : after ops (launchContents m c) (Proc.devRef .tc main_arg1) = m ((c.tc : Thread nD τ).loc main_arg1) := by
  after_results_simp <;> rfl
theorem ref_arg2 (c : Dev nD) : after ops (launchContents m c) (Proc.devRef .tc main_arg2) = m ((c.tc : Thread nD τ).loc main_arg2) := by
  after_results_simp <;> rfl
theorem ref_arg3 (c : Dev nD) : after ops (launchContents m c) (Proc.devRef .tc main_arg3) = m ((c.tc : Thread nD τ).loc main_arg3) := by
  after_results_simp <;> rfl
theorem ref_arg4 (c : Dev nD) : after ops (launchContents m c) (Proc.devRef .tc main_arg4) = m ((c.tc : Thread nD τ).loc main_arg4) := by
  after_results_simp <;> rfl
theorem ref_arg5 (c : Dev nD) : after ops (launchContents m c) (Proc.devRef .tc main_arg5) = m ((c.tc : Thread nD τ).loc main_arg5) := by
  after_results_simp <;> rfl

end Cert.ReferenceIdeal.Hand

end
-- ==== Proof.LibHostDot2.lean ====
/-
  The host's plain matrix product read at an index.

  A `dot_general` on the host with the dimension numbers of a plain matrix product ("contract axis 1 of the left operand
  with axis 0 of the right, no batch axes") of an [A, K] and a [K, B] matrix is, at the ideal values and at output
  position (p, q), the sum over k < K of left(p, k) · right(k, q): the host product has no accumulator, its contraction
  shape has the one axis of extent K, and the operand indices at output (p, q) and contraction position k are (p, k)
  and (k, q). It is the same sum a `tpu.matmul` of those dimension numbers into the zero accumulator computes
  (`Cert.Lib.matmul2_zero_apply`), so a kernel that multiplies block by block and a reference that multiplies once
  agree entry by entry.
-/
import proofs.«141634_j22668837388509_1_alg».proof.Proof.LibMatmul2

noncomputable section

namespace Cert.Lib

open Idealize.ShloMosaic Idealize.ShloMosaic.ValueIdx

variable {A K B : ℕ} {φ₁ φ₂ : FTy}

/-- At output position (p, q) and contraction position k the left operand of a plain product is read at (p, k), -/
theorem plain2_lhsIdx (wf : DotDims.WF ⟨2, ![A, K]⟩ ⟨2, ![K, B]⟩ ⟨2, ![A, B]⟩ [1] [0] [0] [1] [] [])
    (p : Fin A) (q : Fin B) (k : Fin K) :
    (plain2 wf).lhsIdx (ix2 p q) ((contrEquiv1 (plain2 wf) K (plain2_rank wf) (plain2_size wf)).symm k) = ix2 p k := by
  have hk := contrEquiv1_symm_val (plain2 wf) K (plain2_rank wf) (plain2_size wf) k
  funext a; apply Fin.ext
  match a with
  | ⟨0, _⟩ => simp [DotDims.lhsIdx]; rfl
  | ⟨1, _⟩ => exact (DotDims.lhsIdx_val_of_single (plain2 wf) (cl := 1) rfl (ix2 p q) _).trans hk

/-- and the right operand at (k, q). -/
theorem plain2_rhsIdx (wf : DotDims.WF ⟨2, ![A, K]⟩ ⟨2, ![K, B]⟩ ⟨2, ![A, B]⟩ [1] [0] [0] [1] [] [])
    (p : Fin A) (q : Fin B) (k : Fin K) :
    (plain2 wf).rhsIdx (ix2 p q) ((contrEquiv1 (plain2 wf) K (plain2_rank wf) (plain2_size wf)).symm k) = ix2 k q := by
  have hk := contrEquiv1_symm_val (plain2 wf) K (plain2_rank wf) (plain2_size wf) k
  funext a; apply Fin.ext
  match a with
  | ⟨0, _⟩ => exact (DotDims.rhsIdx_val_of_single (plain2 wf) (cr := 0) rfl (ix2 p q) _).trans hk
  | ⟨1, _⟩ => simp [DotDims.rhsIdx]; rfl

/-- The host's product at (p, q) is `∑ k, l (p, k) * r (k, q)`. -/
theorem hostDot2_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    Host.dotGeneral (plain2 wf) none l r (ix2 p q) = ∑ k : Fin K, l (ix2 p k) * r (ix2 k q) := by
  refine (Ideal.dotGeneral_apply (plain2 wf) none .single l r (ix2 p q)).trans ?_
  refine (Equiv.sum_comp (contrEquiv1 (plain2 wf) K (plain2_rank wf) (plain2_size wf)).symm _).symm.trans ?_
  refine Finset.sum_congr rfl fun k _ => ?_
  show l _ * r _ = _
  rw [plain2_lhsIdx, plain2_rhsIdx]

end Cert.Lib

end
-- ==== Proof.RefDense.lean ====
/-
  The reference's two matrix products, read at an index: each is the plain sum over the contraction, so the product
  taken at once on the host is the same function of the operands as the kernel's product taken block of rows by block
  of rows. For the second, the left operand is the rectified first layer: the bias vector repeated over the nodes is
  added, and the maximum with zero taken, entry by entry.
-/
import proofs.«141634_j22668837388509_1_alg».proof.Proof.RefParts
import proofs.«141634_j22668837388509_1_alg».proof.Proof.Spec
import proofs.«141634_j22668837388509_1_alg».proof.Proof.LibHostDot2
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.Hand

open Cert.ReferenceIdeal Cert.ReferenceIdeal.Gen
open Idealize.ShloMosaic Idealize.ShloMosaic.ValueIdx

/-- The host's first product is x · W₁. -/
theorem projHost_eq (x : FVec Ideal S100000x512 .f32) (w : FVec Ideal S512x16 .f32) :
    projHost (F := Ideal) x w = Cert.Spec.proj x w := by
  funext i
  obtain ⟨p, q, rfl⟩ : ∃ (p : Fin 100000) (q : Fin 16), i = ix2 p q := ⟨i 0, i 1, eq_ix2 i⟩
  unfold projHost Cert.Spec.proj
  exact Cert.Lib.hostDot2_apply (A := 100000) (K := 512) (B := 16) dot_S100000x512_S512x16_S100000x16_1_0_0_1_n_n.wf x w p q

/-- The 16-entry bias repeated over the nodes, read at (n, h): the bias of feature h. -/
theorem bias16_apply (b : FVec Ideal S16 .f32) (n : Fin 100000) (h : Fin 16) :
    bias16 (F := Ideal) b (ix2 n h) = b (ix1 h) := by
  unfold bias16
  refine (broadcastInDim_apply _ _ _ (ix2 n h) (ix2 (0 : Fin 1) h) fun a => ?_).trans ?_
  · match a with
    | ⟨0, _⟩ => rfl
    | ⟨1, _⟩ => rfl
  · refine broadcastInDim_apply _ _ _ (ix2 (0 : Fin 1) h) (ix1 h) fun a => ?_
    match a with
    | ⟨0, _⟩ => rfl

/-- The host's second product is max(a + b, 0) · W₂, for the bias laid as a row. -/
theorem hiddenHost_eq (a : FVec Ideal S100000x16 .f32) (b : FVec Ideal S16 .f32) (w : FVec Ideal S16x40 .f32)
    (brow : FVec Ideal ⟨2, ![1, 16]⟩ .f32) (hb : ∀ k : Fin 16, brow (ix2 (0 : Fin 1) k) = b (ix1 k)) :
    hiddenHost (F := Ideal) a b w = Cert.Spec.hidden a brow w := by
  funext i
  obtain ⟨p, q, rfl⟩ : ∃ (p : Fin 100000) (q : Fin 40), i = ix2 p q := ⟨i 0, i 1, eq_ix2 i⟩
  unfold hiddenHost Cert.Spec.hidden Cert.Spec.relu1
  refine (Cert.Lib.hostDot2_apply (A := 100000) (K := 16) (B := 40) dot_S100000x16_S16x40_S100000x40_1_0_0_1_n_n.wf _ w p q).trans ?_
  refine Finset.sum_congr rfl fun k _ => ?_
  show max (a (ix2 p k) + bias16 (F := Ideal) b (ix2 p k)) _ * w (ix2 k q) = _
  rw [bias16_apply, hb]
  rfl

end Cert.ReferenceIdeal.Hand

end
-- ==== Proof.RefSoftmax.lean ====
/-
  The reference's log-softmax of the biased logits, read entry by entry.

  On the host the bias is a 40-vector made a row and repeated over the 100000 nodes; the row maximum M(n) is a reduction
  of max over the 40 classes from −∞, then a maximum with −∞, which changes nothing; the result at (n, q) is
  (z(n, q) − M(n)) − log Σ_k exp(z(n, k) − M(n)) with z(n, k) = a(n, k) + b(k), the sum a host sum from 0 — at the
  extended reals the exact sum over the 40 classes. Each broadcast reads its operand at the coordinates it keeps, so
  entry (n, q) is the specification's log-softmax of the logits a with the bias as a one-row array.
-/
import proofs.«141634_j22668837388509_1_alg».proof.Proof.RefParts
import proofs.«141634_j22668837388509_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.Hand

open Cert.ReferenceIdeal Cert.ReferenceIdeal.Gen
open Idealize.ShloMosaic Idealize.ShloMosaic.ValueIdx

section Layout
variable {α : Type}

/-- The 40-vector made a row and repeated over the nodes reads, at (n, k), the vector at k. -/
theorem bias40_apply (b5 : FVec Ideal S40 .f32) (n : Fin 100000) (k : Fin 40) :
    bias40 (F := Ideal) b5 (ix2 n k) = b5 (ix1 k) := by
  unfold bias40
  refine (broadcastInDim_apply (![0, 1] : Fin 2 → Fin S100000x40.rank) bcast_S1x40_S100000x40_0_1 _ (ix2 n k)
    (ix2 (0 : Fin 1) k) fun ax => ?_).trans ?_
  · match ax with
    | ⟨0, _⟩ => show (0 : ℕ) = if (1 : ℕ) = 1 then 0 else n.val; rw [if_pos rfl]
    | ⟨1, _⟩ => show k.val = if (40 : ℕ) = 1 then 0 else k.val; rw [if_neg (by omega)]
  · refine broadcastInDim_apply (![1] : Fin 1 → Fin S1x40.rank) bcast_S40_S1x40_1 b5 (ix2 (0 : Fin 1) k) (ix1 k) fun ax => ?_
    match ax with
    | ⟨0, _⟩ => show k.val = if (40 : ℕ) = 1 then 0 else k.val; rw [if_neg (by omega)]

/-- A column [100000, 1] repeated along the 40 classes reads, at (n, c), the column at (n, 0). -/
theorem colRow_apply (v : S100000x1.Idx → α) (n : Fin 100000) (c : Fin 40) :
    broadcastInDim S100000x40 ![0, 1] bcast_S100000x1_S100000x40_0_1 v (ix2 n c) = v (ix2 n (0 : Fin 1)) := by
  refine broadcastInDim_apply (![0, 1] : Fin 2 → Fin S100000x40.rank) bcast_S100000x1_S100000x40_0_1 v (ix2 n c)
    (ix2 n (0 : Fin 1)) fun ax => ?_
  match ax with
  | ⟨0, _⟩ => show n.val = if (100000 : ℕ) = 1 then 0 else n.val; rw [if_neg (by omega)]
  | ⟨1, _⟩ => show (0 : ℕ) = if (1 : ℕ) = 1 then 0 else c.val; rw [if_pos rfl]

/-- A vector [100000] made a column reads, at (n, 0), the vector at n. -/
theorem vecCol_apply (v : S100000.Idx → α) (n : Fin 100000) :
    broadcastInDim S100000x1 ![0] bcast_S100000_S100000x1_0 v (ix2 n (0 : Fin 1)) = v (ix1 n) := by
  refine broadcastInDim_apply (![0] : Fin 1 → Fin S100000x1.rank) bcast_S100000_S100000x1_0 v (ix2 n (0 : Fin 1))
    (ix1 n) fun ax => ?_
  match ax with
  | ⟨0, _⟩ => show n.val = if (100000 : ℕ) = 1 then 0 else n.val; rw [if_neg (by omega)]

end Layout

/-- The index of the [100000, 40] array that reduces along the class axis to node n, at class k, is (n, k). -/
theorem lift_node (h : S100000x40.Reduces [1] S100000) (n : Fin 100000) (k : Fin 40) : h.lift (ix1 n) k = ix2 n k := by
  funext d; apply Fin.ext
  match d with | ⟨0, _⟩ => rfl | ⟨1, _⟩ => rfl

/-- The host's reduction of max over the class axis from −∞, at node n: the fold of max over the 40 classes. -/
theorem hostMax_apply (z : FVec Ideal S100000x40 .f32) (n : Fin 100000) :
    Host.reduce FloatOps.maximumf z (constant (F := Ideal) S_ .f32 0xFF800000#32) reducesTo_S100000x40_S100000_d1 h_S_ (ix1 n)
      = (Finset.univ : Finset (Fin 40)).fold max (Ideal.ofBits .f32 0xFF800000#32) (fun k => z (ix2 n k)) := by
  have h : S100000x40.Reduces [1] S100000 := by decide
  refine (Host.reduce_eq_fold_single FloatOps.maximumf z _ reducesTo_S100000x40_S100000_d1 h h_S_ (ix1 n)).trans ?_
  have hf : (z ∘ h.lift (ix1 n)) = fun k : Fin 40 => z (ix2 n k) := funext fun k => congrArg z (lift_node h n k)
  exact congrArg (fun f => Finset.fold max (Ideal.ofBits .f32 0xFF800000#32) f (Finset.univ : Finset (Fin 40))) hf

/-- The host's sum over the class axis from 0, at node n: the sum over the 40 classes. -/
theorem hostSum_apply (e : FVec Ideal S100000x40 .f32) (n : Fin 100000) :
    Host.reduceAdd (F := Ideal) e (constant (F := Ideal) S_ .f32 0x00000000#32) reducesTo_S100000x40_S100000_d1 h_S_ (ix1 n)
      = ∑ k : Fin 40, e (ix2 n k) := by
  have h : S100000x40.Reduces [1] S100000 := by decide
  unfold Host.reduceAdd
  rw [Ideal.hostReduceAdd_def]
  refine (Ideal.hostReduceAdd_single reducesTo_S100000x40_S100000_d1 h e _ (ix1 n)).trans ?_
  have hc : constant (F := Ideal) S_ .f32 0x00000000#32 (Shape.Idx.first h_S_) = (0 : EReal) := Ideal.ofBits_zero_f32
  rw [hc, zero_add]
  exact Finset.sum_congr rfl fun k _ => congrArg e (lift_node h n k)

/-- The host's logarithm read at an index: the logarithm of the element. -/
theorem hostLog_apply {s : Shape} {φ : FTy} (x : FVec Ideal s φ) (i : s.Idx) : Host.log x i = Ideal.log (x i) := rfl

/-- The host's exponential read at an index: the exponential of the element. -/
theorem hostExp_apply {s : Shape} {φ : FTy} (x : FVec Ideal s φ) (i : s.Idx) : Host.exp x i = Ideal.exp (x i) := rfl

/-- The host's row maximum at node n: the fold of max over the 40 classes from −∞ (the maximum with −∞ after the
    reduction changes nothing: −∞ is the least extended real). -/
theorem rowMaxHost_apply (z : FVec Ideal S100000x40 .f32) (n : Fin 100000) :
    rowMaxHost (F := Ideal) z (ix1 n)
      = (Finset.univ : Finset (Fin 40)).fold max (Ideal.ofBits .f32 0xFF800000#32) (fun k => z (ix2 n k)) := by
  have hbot : ∀ y : EReal, max (Ideal.ofBits .f32 0xFF800000#32) y = y := fun y => by simp [Ideal.ofBits, Ideal.ieee]
  have hc : broadcastInDim S100000 ![] bcast_S_S100000 (constant (F := Ideal) S_ .f32 0xFF800000#32) (ix1 n)
      = Ideal.ofBits .f32 0xFF800000#32 := rfl
  unfold rowMaxHost
  rw [maximumf_apply, hostMax_apply z n, hc]
  exact hbot _

/-- The shifted logits at (n, k): z(n, k) less the row maximum of node n. -/
theorem shiftedHost_apply (z : FVec Ideal S100000x40 .f32) (n : Fin 100000) (k : Fin 40) :
    shiftedHost (F := Ideal) z (ix2 n k) = z (ix2 n k) - rowMaxHost (F := Ideal) z (ix1 n) := by
  unfold shiftedHost
  rw [subf_apply, colRow_apply, vecCol_apply]

/-- The host's log-softmax at (n, q): the shifted logit less the logarithm of the sum, over the 40 classes, of the
    exponentials of node n's shifted logits. -/
theorem lsmHost_apply (z : FVec Ideal S100000x40 .f32) (n : Fin 100000) (q : Fin 40) :
    lsmHost (F := Ideal) z (ix2 n q) = (z (ix2 n q) - rowMaxHost (F := Ideal) z (ix1 n))
      - Ideal.log (∑ k : Fin 40, Ideal.exp (z (ix2 n k) - rowMaxHost (F := Ideal) z (ix1 n))) := by
  unfold lsmHost
  rw [subf_apply, colRow_apply, hostLog_apply, vecCol_apply, hostSum_apply, shiftedHost_apply z n q]
  refine congrArg (fun s => (z (ix2 n q) - rowMaxHost (F := Ideal) z (ix1 n)) - Ideal.log s) ?_
  refine Finset.sum_congr rfl fun k _ => ?_
  rw [hostExp_apply, shiftedHost_apply z n k]

/-- The reference's log-softmax of a plus the repeated bias is the specification's log-softmax of the logits a with
    the bias as a one-row array. -/
theorem lsmHost_bias (a : FVec Ideal S100000x40 .f32) (b5 : FVec Ideal S40 .f32) (brow : FVec Ideal ⟨2, ![1, 40]⟩ .f32)
    (hb : ∀ k : Fin 40, brow (ix2 (0 : Fin 1) k) = b5 (ix1 k)) :
    lsmHost (F := Ideal) (addf a (bias40 (F := Ideal) b5)) = Cert.Spec.logSoftmaxBias a brow := by
  funext i
  obtain ⟨n, q, rfl⟩ : ∃ (n : Fin 100000) (q : Fin 40), i = ix2 n q := ⟨i 0, i 1, eq_ix2 i⟩
  refine (lsmHost_apply _ n q).trans ?_
  -- the biased logits of node n, class by class
  have hz : ∀ k : Fin 40, addf a (bias40 (F := Ideal) b5) (ix2 n k) = Cert.Spec.logits a brow n k := fun k => by
    show addf a (bias40 (F := Ideal) b5) (ix2 n k) = a (ix2 n k) + brow (ix2 (0 : Fin 1) k)
    rw [addf_apply, bias40_apply, hb]
  -- so the two row maxima agree
  have hM : rowMaxHost (F := Ideal) (addf a (bias40 (F := Ideal) b5)) (ix1 n) = Cert.Spec.rowMax a brow n := by
    refine (rowMaxHost_apply _ n).trans ?_
    unfold Cert.Spec.rowMax
    exact congrArg (fun f => Finset.fold max (Ideal.ofBits .f32 0xFF800000#32) f (Finset.univ : Finset (Fin 40))) (funext hz)
  show _ = (Cert.Spec.logits a brow n q - Cert.Spec.rowMax a brow n)
    - Ideal.log (∑ k : Fin 40, Ideal.exp (Cert.Spec.logits a brow n k - Cert.Spec.rowMax a brow n))
  rw [hM]
  simp only [hz]

end Cert.ReferenceIdeal.Hand

end
-- ==== Proof.lean ====
/-
  A two-layer graph convolution with symmetric degree normalization, ending in log-softmax, against its jnp reference:
  the three frames, the (empty) idealization ledger, and the equality of the two idealized programs' results.

  Both programs run the sparse half on the host with the same operations — the edge list with self-loops appended, the
  in-degrees and their inverse square roots, and for each layer gather the source rows, scale by the edge's
  normalization, add up per target node. They differ in the dense half only. The kernel computes x · W₁, then
  max(agg₁ + b₁, 0) · W₂, then log-softmax(agg₂ + b₂), each in a pallas_call over blocks of rows; the reference
  computes each at once on whole arrays. At the extended reals a matrix product is the plain sum over the contraction
  index whatever the blocking, and log-softmax of a row involves that row alone, so each pallas_call leaves exactly
  the reference's whole-array function of the arrays it finds. No law used needs finiteness: the precondition is never
  opened.
-/
import proofs.«141634_j22668837388509_1_alg».proof.Defs
import proofs.«141634_j22668837388509_1_alg».proof.Proof.Gen.Kernel
import proofs.«141634_j22668837388509_1_alg».proof.Proof.Gen.Kernel.Skeleton
import proofs.«141634_j22668837388509_1_alg».proof.Proof.Gen.Kernel.Launch
import proofs.«141634_j22668837388509_1_alg».proof.Proof.Gen.Kernel.Points
import proofs.«141634_j22668837388509_1_alg».proof.Proof.Gen.Kernel.Frame
import proofs.«141634_j22668837388509_1_alg».proof.Proof.Gen.KernelIdeal
import proofs.«141634_j22668837388509_1_alg».proof.Proof.Gen.KernelIdeal.Skeleton
import proofs.«141634_j22668837388509_1_alg».proof.Proof.Gen.KernelIdeal.Launch
import proofs.«141634_j22668837388509_1_alg».proof.Proof.Gen.KernelIdeal.Points
import proofs.«141634_j22668837388509_1_alg».proof.Proof.Gen.KernelIdeal.Frame
import proofs.«141634_j22668837388509_1_alg».proof.Proof.Gen.ReferenceIdeal
import proofs.«141634_j22668837388509_1_alg».proof.Proof.Gen.Pre_finite_inputs
import proofs.«141634_j22668837388509_1_alg».proof.Proof.KernelRun
import proofs.«141634_j22668837388509_1_alg».proof.Proof.KernelValue
import proofs.«141634_j22668837388509_1_alg».proof.Proof.RefFold
import proofs.«141634_j22668837388509_1_alg».proof.Proof.RefDense
import proofs.«141634_j22668837388509_1_alg».proof.Proof.RefSoftmax
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem
open Cert.KernelIdeal.Hand (rowOf colOf normOf agg16 agg40)

/-- The reference's dense stages are the kernel's: the host's two products and its log-softmax, applied to the same
    aggregated layers, are the whole-array functions the pallas_calls leave. -/
theorem dense_eq (x : FVec Ideal Cert.KernelIdeal.S100000x512 .f32) (e : (⟨Cert.KernelIdeal.S2x3200000, .i32⟩ : BufTy).Contents (Elt Ideal))
    (w1 : FVec Ideal Cert.KernelIdeal.S512x16 .f32) (b1 : FVec Ideal Cert.KernelIdeal.S16 .f32)
    (w2 : FVec Ideal Cert.KernelIdeal.S16x40 .f32) (b2 : FVec Ideal Cert.KernelIdeal.S40 .f32) :
    Cert.ReferenceIdeal.Hand.refOut (F := Ideal) x e w1 b1 w2 b2
      = Cert.Spec.logSoftmaxBias
          (agg40 (rowOf e) (colOf e) (normOf (rowOf e) (colOf e))
            (Cert.Spec.hidden (agg16 (rowOf e) (colOf e) (normOf (rowOf e) (colOf e)) (Cert.Spec.proj x w1))
              (shapeCast Cert.KernelIdeal.S1x16 b1 Cert.KernelIdeal.Facts₀.shapeCasts_S16_S1x16) w2))
          (shapeCast Cert.KernelIdeal.S1x40 b2 Cert.KernelIdeal.Facts₀.shapeCasts_S40_S1x40) := by
  unfold Cert.ReferenceIdeal.Hand.refOut
  rw [Cert.ReferenceIdeal.Hand.projHost_eq,
    Cert.ReferenceIdeal.Hand.hiddenHost_eq _ b1 w2 (shapeCast Cert.KernelIdeal.S1x16 b1 Cert.KernelIdeal.Facts₀.shapeCasts_S16_S1x16)
      (fun k => shapeCast_a_1a_apply b1 _ 0 k),
    Cert.ReferenceIdeal.Hand.lsmHost_bias _ b2 (shapeCast Cert.KernelIdeal.S1x40 b2 Cert.KernelIdeal.Facts₀.shapeCasts_S40_S1x40)
      (fun k => shapeCast_a_1a_apply b2 _ 0 k)]

theorem frame_k : Cert.frame_Kernel := fun m ρ _ => Cert.Kernel.Gen.frame m ρ

theorem frame_ki : Cert.frame_KernelIdeal := fun m ρ _ => Cert.KernelIdeal.Gen.frame m ρ

/-- The reference is a straight line of host operations none of which writes an argument. -/
theorem frame_ri : Cert.frame_ReferenceIdeal := fun m ρ _ =>
  (θ_run Cert.ReferenceIdeal.defs _ _).mono (fun _ h c =>
    ⟨(h c Cert.ReferenceIdeal.main_arg0).trans (Cert.ReferenceIdeal.Hand.ref_arg0 m c),
     (h c Cert.ReferenceIdeal.main_arg1).trans (Cert.ReferenceIdeal.Hand.ref_arg1 m c),
     (h c Cert.ReferenceIdeal.main_arg2).trans (Cert.ReferenceIdeal.Hand.ref_arg2 m c),
     (h c Cert.ReferenceIdeal.main_arg3).trans (Cert.ReferenceIdeal.Hand.ref_arg3 m c),
     (h c Cert.ReferenceIdeal.main_arg4).trans (Cert.ReferenceIdeal.Hand.ref_arg4 m c),
     (h c Cert.ReferenceIdeal.main_arg5).trans (Cert.ReferenceIdeal.Hand.ref_arg5 m c)⟩)
    (Cert.ReferenceIdeal.Hand.run_fold (F := Ideal) m ρ)

/-- The idealization rewrote no operation. -/
theorem preserves : Cert.preserves_Kernel_KernelIdeal := trivial

/-- Both idealized programs end with the log-softmax of the twice aggregated, biased layers of the same arguments. -/
theorem algebraic : Cert.algebraic_KernelIdeal_ReferenceIdeal := by
  intro m ρ m' ρ' _ hagree
  refine ⟨fun c => Cert.Spec.logSoftmaxBias (Cert.KernelIdeal.Hand.layer2 m c)
      (shapeCast Cert.KernelIdeal.S1x40 (m ((c : Thread Cert.KernelIdeal.nD Cert.KernelIdeal.τ).loc Cert.KernelIdeal.main_arg5))
        Cert.KernelIdeal.Facts₀.shapeCasts_S40_S1x40), ?_, ?_⟩
  · exact (θ_run Cert.KernelIdeal.defs _ _).mono
      (fun r h c => ⟨(h c).1.trans (Cert.KernelIdeal.Hand.kernel_value m ρ c), (h c).2⟩)
      (Cert.KernelIdeal.Hand.run_named (F := Ideal) m ρ)
  · refine (θ_run Cert.ReferenceIdeal.defs _ _).mono (fun r h c => ?_) (Cert.ReferenceIdeal.Hand.run_fold (F := Ideal) m' ρ')
    obtain ⟨a0, a1, a2, a3, a4, a5⟩ := hagree c
    refine ⟨?_, (h c Cert.ReferenceIdeal.main_arg0).trans (Cert.ReferenceIdeal.Hand.ref_arg0 m' c),
      (h c Cert.ReferenceIdeal.main_arg1).trans (Cert.ReferenceIdeal.Hand.ref_arg1 m' c),
      (h c Cert.ReferenceIdeal.main_arg2).trans (Cert.ReferenceIdeal.Hand.ref_arg2 m' c),
      (h c Cert.ReferenceIdeal.main_arg3).trans (Cert.ReferenceIdeal.Hand.ref_arg3 m' c),
      (h c Cert.ReferenceIdeal.main_arg4).trans (Cert.ReferenceIdeal.Hand.ref_arg4 m' c),
      (h c Cert.ReferenceIdeal.main_arg5).trans (Cert.ReferenceIdeal.Hand.ref_arg5 m' c)⟩
    refine (h c Cert.ReferenceIdeal.main_v65).trans ((Cert.ReferenceIdeal.Hand.ref_value m' c).trans ?_)
    rw [a0, a1, a2, a3, a4, a5]
    exact dense_eq _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
